-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S4096x784 : Shape := ⟨2, ![4096, 784]⟩
abbrev S20480 : Shape := ⟨1, ![20480]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S4096x784 : S_.BroadcastsInDim S4096x784 (![] : Fin 0 → Fin S4096x784.rank)
  reducesTo_S4096x784_S_d0_1 : S4096x784.ReducesTo [0, 1] S_

variable [Facts]

def fn {F : FTy → Type} [FloatOps F] (main_arg0 : FVec F S4096x32 .f32) (main_arg1 : FVec F S4096x784 .f32) (main_arg2 : IVec S20480 32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S4096x784 .f32 := Host.absf main_arg1
  let main_cst_0 : FVec F S_ .f32 := constant S_ .f32 0x7F800000#32
  let main_v5 : FVec F S4096x784 .f32 := broadcastInDim S4096x784 ![] bcast_S_S4096x784 main_cst_0
  let main_v6 : IVec S4096x784 1 := cmpf .olt main_v4 main_v5
  let main_c_1 : IVec S_ 1 := constantI S_ 1 1#1
  let main_v7 : IVec S_ 1 := (fun x v => Host.reduce IntOp.andi x v reducesTo_S4096x784_S_d0_1 h_S_) main_v6 main_c_1
  let main_v8 : IVec S_ 1 := andi main_v3 main_v7
  main_v8
-- ==== Kernel.lean ====
abbrev S4096x32 : Shape := ⟨2, ![4096, 32]⟩
abbrev S4096x784 : Shape := ⟨2, ![4096, 784]⟩
abbrev S20480 : Shape := ⟨1, ![20480]⟩
abbrev S4096x16 : Shape := ⟨2, ![4096, 16]⟩
abbrev S4096x5x16 : Shape := ⟨3, ![4096, 5, 16]⟩
abbrev S20480x16 : Shape := ⟨2, ![20480, 16]⟩
abbrev S_ : Shape := ⟨0, ![]⟩
abbrev S20480x1 : Shape := ⟨2, ![20480, 1]⟩
abbrev S4096 : Shape := ⟨1, ![4096]⟩
abbrev S24576 : Shape := ⟨1, ![24576]⟩
abbrev S4096x1 : Shape := ⟨2, ![4096, 1]⟩
abbrev S1x4096 : Shape := ⟨2, ![1, 4096]⟩
abbrev S128x784 : Shape := ⟨2, ![128, 784]⟩
abbrev S128x16 : Shape := ⟨2, ![128, 16]⟩
abbrev S128x1 : Shape := ⟨2, ![128, 1]⟩
abbrev S128x4096 : Shape := ⟨2, ![128, 4096]⟩
abbrev S128 : Shape := ⟨1, ![128]⟩

abbrev nBuf : Space → Nat
  | .hbm => 132
  | .vmem => 14
  | .smem => 0
  | _ => 0

abbrev hbmTy0_0 (i : Nat) : BufTy := match i % 128 with
  | 0 => ⟨S4096x32, .f32⟩
  | 1 => ⟨S4096x784, .f32⟩
  | 2 => ⟨S20480, .i32⟩
  | 3 => ⟨S4096x16, .f32⟩
  | 4 => ⟨S4096x16, .f32⟩
  | 5 => ⟨S4096x5x16, .f32⟩
  | 6 => ⟨S20480x16, .f32⟩
  | 7 => ⟨S4096x5x16, .f32⟩
  | 8 => ⟨S20480x16, .f32⟩
  | 9 => ⟨S_, .i32⟩
  | 10 => ⟨S20480, .i32⟩
  | 11 => ⟨S20480, .i1⟩
  | 12 => ⟨S_, .i32⟩
  | 13 => ⟨S20480, .i32⟩
  | 14 => ⟨S20480, .i32⟩
  | 15 => ⟨S20480, .i32⟩
  | 16 => ⟨S20480x1, .i32⟩
  | 17 => ⟨S20480x16, .f32⟩
  | 18 => ⟨S4096x16, .f32⟩
  | 19 => ⟨S4096x16, .f32⟩
  | 20 => ⟨S_, .f32⟩
  | 21 => ⟨S4096, .f32⟩
  | 22 => ⟨S_, .f32⟩
  | 23 => ⟨S4096, .f32⟩
  | 24 => ⟨S4096, .i1⟩
  | 25 => ⟨S_, .f32⟩
  | 26 => ⟨S_, .f32⟩
  | 27 => ⟨S4096, .f32⟩
  | 28 => ⟨S4096, .f32⟩
  | 29 => ⟨S_, .f32⟩
  | 30 => ⟨S4096, .f32⟩
  | 31 => ⟨S4096, .i1⟩
  | 32 => ⟨S4096, .f32⟩
  | 33 => ⟨S_, .f32⟩
  | 34 => ⟨S_, .f32⟩
  | 35 => ⟨S4096, .f32⟩
  | 36 => ⟨S4096, .f32⟩
  | 37 => ⟨S20480x16, .f32⟩
  | 38 => ⟨S20480x16, .f32⟩
  | 39 => ⟨S_, .f32⟩
  | 40 => ⟨S20480, .f32⟩
  | 41 => ⟨S_, .f32⟩
  | 42 => ⟨S20480, .f32⟩
  | 43 => ⟨S20480, .i1⟩
  | 44 => ⟨S_, .f32⟩
  | 45 => ⟨S_, .f32⟩
  | 46 => ⟨S20480, .f32⟩
  | 47 => ⟨S20480, .f32⟩
  | 48 => ⟨S_, .f32⟩
  | 49 => ⟨S20480, .f32⟩
  | 50 => ⟨S20480, .i1⟩
  | 51 => ⟨S20480, .f32⟩
  | 52 => ⟨S_, .f32⟩
  | 53 => ⟨S_, .f32⟩
  | 54 => ⟨S20480, .f32⟩
  | 55 => ⟨S20480, .f32⟩
  | 56 => ⟨S24576, .f32⟩
  | 57 => ⟨S_, .f32⟩
  | 58 => ⟨S24576, .f32⟩
  | 59 => ⟨S24576, .f32⟩
  | 60 => ⟨S_, .f32⟩
  | 61 => ⟨S24576, .f32⟩
  | 62 => ⟨S24576, .f32⟩
  | 63 => ⟨S_, .f32⟩
  | 64 => ⟨S24576, .f32⟩
  | 65 => ⟨S24576, .f32⟩
  | 66 => ⟨S_, .f32⟩
  | 67 => ⟨S24576, .f32⟩
  | 68 => ⟨S24576, .f32⟩
  | 69 => ⟨S_, .f32⟩
  | 70 => ⟨S4096, .f32⟩
  | 71 => ⟨S_, .f32⟩
  | 72 => ⟨S20480, .f32⟩
  | 73 => ⟨S24576, .f32⟩
  | 74 => ⟨S24576, .f32⟩
  | 75 => ⟨S_, .f32⟩
  | 76 => ⟨S_, .f32⟩
  | 77 => ⟨S_, .f32⟩
  | 78 => ⟨S24576, .f32⟩
  | 79 => ⟨S24576, .f32⟩
  | 80 => ⟨S_, .f32⟩
  | 81 => ⟨S24576, .f32⟩
  | 82 => ⟨S24576, .f32⟩
  | 83 => ⟨S24576, .f32⟩
  | 84 => ⟨S24576, .f32⟩
  | 85 => ⟨S_, .f32⟩
  | 86 => ⟨S24576, .f32⟩
  | 87 => ⟨S24576, .f32⟩
  | 88 => ⟨S24576, .f32⟩
  | 89 => ⟨S_, .f32⟩
  | 90 => ⟨S24576, .f32⟩
  | 91 => ⟨S24576, .f32⟩
  | 92 => ⟨S_, .f32⟩
  | 93 => ⟨S_, .f32⟩
  | 94 => ⟨S_, .f32⟩
  | 95 => ⟨S24576, .f32⟩
  | 96 => ⟨S24576, .f32⟩
  | 97 => ⟨S_, .f32⟩
  | 98 => ⟨S24576, .f32⟩
  | 99 => ⟨S24576, .f32⟩
  | 100 => ⟨S24576, .f32⟩
  | 101 => ⟨S24576, .f32⟩
  | 102 => ⟨S_, .f32⟩
  | 103 => ⟨S24576, .f32⟩
  | 104 => ⟨S24576, .f32⟩
  | 105 => ⟨S24576, .f32⟩
  | 106 => ⟨S_, .f32⟩
  | 107 => ⟨S_, .f32⟩
  | 108 => ⟨S_, .f32⟩
  | 109 => ⟨S_, .f32⟩
  | 110 => ⟨S4096x16, .f32⟩
  | 111 => ⟨S4096x784, .f32⟩
  | 112 => ⟨S_, .f32⟩
  | 113 => ⟨S4096, .f32⟩
  | 114 => ⟨S4096x16, .f32⟩
  | 115 => ⟨S_, .f32⟩
  | 116 => ⟨S4096, .f32⟩
  | 117 => ⟨S4096x1, .f32⟩
  | 118 => ⟨S1x4096, .f32⟩
  | 119 => ⟨S4096x1, .f32⟩
  | 120 => ⟨S1x4096, .f32⟩
  | 121 => ⟨S4096x1, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S4096x32, .f32⟩

abbrev hbmTy (i : Nat) : BufTy := match i / 128 with
  | 0 => hbmTy0_0 i
  | 1 => hbmTy0_1 i
  | _ => ⟨S4096x32, .f32⟩

abbrev bufTy : (tb : Table) → Fin (tcTables nBuf tb) → BufTy
  | .hbm, ⟨i, _⟩ => hbmTy i
  | .local _ .vmem, ⟨0, _⟩ => ⟨S128x784, .f32⟩
  | .local _ .vmem, ⟨1, _⟩ => ⟨S128x784, .f32⟩
  | .local _ .vmem, ⟨2, _⟩ => ⟨S4096x784, .f32⟩
  | .local _ .vmem, ⟨3, _⟩ => ⟨S128x16, .f32⟩
  | .local _ .vmem, ⟨4, _⟩ => ⟨S128x16, .f32⟩
  | .local _ .vmem, ⟨5, _⟩ => ⟨S4096x16, .f32⟩
  | .local _ .vmem, ⟨6, _⟩ => ⟨S128x1, .f32⟩
  | .local _ .vmem, ⟨7, _⟩ => ⟨S128x1, .f32⟩
  | .local _ .vmem, ⟨8, _⟩ => ⟨S1x4096, .f32⟩
  | .local _ .vmem, ⟨9, _⟩ => ⟨S128x1, .f32⟩
  | .local _ .vmem, ⟨10, _⟩ => ⟨S128x1, .f32⟩
  | .local _ .vmem, ⟨11, _⟩ => ⟨S1x4096, .f32⟩
  | .local _ .vmem, ⟨12, _⟩ => ⟨S128x1, .f32⟩
  | .local _ .vmem, ⟨13, _⟩ => ⟨S128x1, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_call3_v0 : Ref sig .tc := ⟨.hbm, 53, rfl⟩
abbrev main_call3_v1 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_cst_17 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_18 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_19 : Ref sig .tc := ⟨.hbm, 89, rfl⟩
abbrev main_v52 : Ref sig .tc := ⟨.hbm, 90, rfl⟩
abbrev main_v53 : Ref sig .tc := ⟨.hbm, 91, rfl⟩
abbrev main_cst_20 : Ref sig .tc := ⟨.hbm, 92, rfl⟩
abbrev main_cst_21 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_22 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_23 : Ref sig .tc := ⟨.hbm, 106, rfl⟩
abbrev main_v60 : Ref sig .tc := ⟨.hbm, 107, rfl⟩
abbrev main_cst_24 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_25 : Ref sig .tc := ⟨.hbm, 112, rfl⟩
abbrev main_v64 : Ref sig .tc := ⟨.hbm, 113, rfl⟩
abbrev main_v65 : Ref sig .tc := ⟨.hbm, 114, rfl⟩
abbrev main_cst_26 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_27 : Ref sig .tc := ⟨.hbm, 122, rfl⟩
abbrev main_v72 : Ref sig .tc := ⟨.hbm, 123, rfl⟩
abbrev main_cst_28 : Ref sig .tc := ⟨.hbm, 124, rfl⟩
abbrev main_v73 : Ref sig .tc := ⟨.hbm, 125, rfl⟩
abbrev main_v74 : Ref sig .tc := ⟨.hbm, 126, rfl⟩
abbrev main_cst_29 : Ref sig .tc := ⟨.hbm, 127, rfl⟩
abbrev main_v75 : Ref sig .tc := ⟨.hbm, 128, rfl⟩
abbrev main_cst_30 : Ref sig .tc := ⟨.hbm, 129, rfl⟩
abbrev main_v76 : Ref sig .tc := ⟨.hbm, 130, rfl⟩
abbrev main_v77 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S4096x32_S4096x16_0_0 : S4096x32.Slices ![0, 0] S4096x16
  slices_S4096x32_S4096x16_0_16 : S4096x32.Slices ![0, 16] S4096x16
  bcast_S4096x16_S4096x5x16_0_2 : S4096x16.BroadcastsInDim S4096x5x16 (![0, 2] : Fin 2 → Fin S4096x5x16.rank)
  shapeCasts_S4096x5x16_S20480x16 : S4096x5x16.ShapeCasts S20480x16
  bcast_S_S20480 : S_.BroadcastsInDim S20480 (![] : Fin 0 → Fin S20480.rank)
  bcast_S20480_S20480x1_0 : S20480.BroadcastsInDim S20480x1 (![0] : Fin 1 → Fin S20480x1.rank)
  reducesTo_S4096x16_S4096_d1 : S4096x16.ReducesTo [1] S4096
  h_S_ : 0 < S_.numel
  bcast_S_S4096 : S_.BroadcastsInDim S4096 (![] : Fin 0 → Fin S4096.rank)
  reducesTo_S20480x16_S20480_d1 : S20480x16.ReducesTo [1] S20480
  concatenates_S4096_S20480_S24576_d0 : Shape.Concatenates [S4096, S20480] S24576 0
  bcast_S_S24576 : S_.BroadcastsInDim S24576 (![] : Fin 0 → Fin S24576.rank)
  reducesTo_S24576_S_d0 : S24576.ReducesTo [0] S_
  reducesTo_S4096x784_S4096_d1 : S4096x784.ReducesTo [1] S4096
  shapeCasts_S4096_S4096x1 : S4096.ShapeCasts S4096x1
  shapeCasts_S4096_S1x4096 : S4096.ShapeCasts S1x4096
  inb_S128x784_S128x784_0_0 : ∀ a, (![0, 0] : Fin 2 → Nat) a + S128x784.size a ≤ S128x784.size a
  h_S128x784 : 0 < S128x784.numel
  inb_S4096x784_S4096x784_0_0 : ∀ a, (![0, 0] : Fin 2 → Nat) a + S4096x784.size a ≤ S4096x784.size a
  h_S4096x784 : 0 < S4096x784.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  reducesTo_S4096x1_S_d0_1 : S4096x1.ReducesTo [0, 1] S_
  gather_S20480x16_S20480x1_S20480x16_1_0_n_n_0_1_116_wf : GatherDims.WF S20480x16 S20480x1 S20480x16 [1] [0] [] [0] [] 1 ![1, 16]
  dot_S128x784_S4096x784_S128x4096_1_1_0_0_n_n_wf : DotDims.WF S128x784 S4096x784 S128x4096 [1] [1] [0] [0] [] []
  dot_S128x16_S4096x16_S128x4096_1_1_0_0_n_n_wf : DotDims.WF S128x16 S4096x16 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x784.size a ≤ S4096x784.size a
  hwx0_0 : ∀ i : grid0.Coords, EltTy.bits .f32 = 32 ∨ (Rect.block (s := S4096x784) S128x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x784.size a ≤ S4096x784.size a
  hwx0_1 : ∀ i : grid0.Coords, EltTy.bits .f32 = 32 ∨ (Rect.block (s := S4096x784) S4096x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S4096x16.size a
  hwx0_2 : ∀ i : grid0.Coords, EltTy.bits .f32 = 32 ∨ (Rect.block (s := S4096x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S4096x16.size a
  hwx0_3 : ∀ i : grid0.Coords, EltTy.bits .f32 = 32 ∨ (Rect.block (s := S4096x16) S4096x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S4096x1.size a
  hwx0_8 : ∀ i : grid0.Coords, EltTy.bits .f32 = 32 ∨ (Rect.block (s := S4096x1) S128x1.size (cc0_transform_8 i) (hinb0_8 i)).WholeWords (EltTy.packing .f32)

variable [Facts₀]

def gather_S20480x16_S20480x1_S20480x16_1_0_n_n_0_1_116 : GatherDims S20480x16 S20480x1 S20480x16 where
  offsetDims := [1]
  collapsedSliceDims := [0]
  operandBatchingDims := []
  startIndicesBatchingDims := []
  startIndexMap := [0]
  indexVectorDim := 1
  sliceSizes := ![1, 16]
  wf := gather_S20480x16_S20480x1_S20480x16_1_0_n_n_0_1_116_wf
def dot_S128x784_S4096x784_S128x4096_1_1_0_0_n_n : DotDims S128x784 S4096x784 S128x4096 where
  lhsContracting := [1]
  rhsContracting := [1]
  lhsNonContracting := [0]
  rhsNonContracting := [0]
  lhsBatch := []
  rhsBatch := []
  wf := dot_S128x784_S4096x784_S128x4096_1_1_0_0_n_n_wf
def dot_S128x16_S4096x16_S128x4096_1_1_0_0_n_n : DotDims S128x16 S4096x16 S128x4096 where
  lhsContracting := [1]
  rhsContracting := [1]
  lhsNonContracting := [0]
  rhsNonContracting := [0]
  lhsBatch := []
  rhsBatch := []
  wf := dot_S128x16_S4096x16_S128x4096_1_1_0_0_n_n_wf

abbrev win0_0 : Pipeline.Window sig grid0 :=
  Pipeline.Window.ofSpec (Memref.whole main_arg1) S128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S4096x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v68) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v70) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v71) S128x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x32 : Shape := ⟨2, ![4096, 32]⟩
abbrev S4096x784 : Shape := ⟨2, ![4096, 784]⟩
abbrev S20480 : Shape := ⟨1, ![20480]⟩
abbrev S4096x16 : Shape := ⟨2, ![4096, 16]⟩
abbrev S4096x5x16 : Shape := ⟨3, ![4096, 5, 16]⟩
abbrev S20480x16 : Shape := ⟨2, ![20480, 16]⟩
abbrev S_ : Shape := ⟨0, ![]⟩
abbrev S20480x1 : Shape := ⟨2, ![20480, 1]⟩
abbrev S4096 : Shape := ⟨1, ![4096]⟩
abbrev S24576 : Shape := ⟨1, ![24576]⟩
abbrev S784x4096 : Shape := ⟨2, ![784, 4096]⟩
abbrev S4096x4096 : Shape := ⟨2, ![4096, 4096]⟩
abbrev S4096x1 : Shape := ⟨2, ![4096, 1]⟩
abbrev S1x4096 : Shape := ⟨2, ![1, 4096]⟩
abbrev S16x4096 : Shape := ⟨2, ![16, 4096]⟩

abbrev nBuf : Space → Nat
  | .hbm => 214
  | .vmem => 0
  | .smem => 0
  | _ => 0

abbrev hbmTy0_0 (i : Nat) : BufTy := match i % 128 with
  | 0 => ⟨S4096x32, .f32⟩
  | 1 => ⟨S4096x784, .f32⟩
  | 2 => ⟨S20480, .i32⟩
  | 3 => ⟨S4096x16, .f32⟩
  | 4 => ⟨S4096x16, .f32⟩
  | 5 => ⟨S4096x5x16, .f32⟩
  | 6 => ⟨S20480x16, .f32⟩
  | 7 => ⟨S4096x5x16, .f32⟩
  | 8 => ⟨S20480x16, .f32⟩
  | 9 => ⟨S_, .i32⟩
  | 10 => ⟨S20480, .i32⟩
  | 11 => ⟨S20480, .i1⟩
  | 12 => ⟨S_, .i32⟩
  | 13 => ⟨S20480, .i32⟩
  | 14 => ⟨S20480, .i32⟩
  | 15 => ⟨S20480, .i32⟩
  | 16 => ⟨S20480x1, .i32⟩
  | 17 => ⟨S20480x16, .f32⟩
  | 18 => ⟨S4096x16, .f32⟩
  | 19 => ⟨S4096x16, .f32⟩
  | 20 => ⟨S_, .f32⟩
  | 21 => ⟨S4096, .f32⟩
  | 22 => ⟨S_, .f32⟩
  | 23 => ⟨S4096, .f32⟩
  | 24 => ⟨S4096, .i1⟩
  | 25 => ⟨S_, .f32⟩
  | 26 => ⟨S_, .f32⟩
  | 27 => ⟨S4096, .f32⟩
  | 28 => ⟨S4096, .f32⟩
  | 29 => ⟨S_, .f32⟩
  | 30 => ⟨S4096, .f32⟩
  | 31 => ⟨S4096, .i1⟩
  | 32 => ⟨S4096, .f32⟩
  | 33 => ⟨S_, .f32⟩
  | 34 => ⟨S_, .f32⟩
  | 35 => ⟨S4096, .f32⟩
  | 36 => ⟨S4096, .f32⟩
  | 37 => ⟨S20480x16, .f32⟩
  | 38 => ⟨S20480x16, .f32⟩
  | 39 => ⟨S_, .f32⟩
  | 40 => ⟨S20480, .f32⟩
  | 41 => ⟨S_, .f32⟩
  | 42 => ⟨S20480, .f32⟩
  | 43 => ⟨S20480, .i1⟩
  | 44 => ⟨S_, .f32⟩
  | 45 => ⟨S_, .f32⟩
  | 46 => ⟨S20480, .f32⟩
  | 47 => ⟨S20480, .f32⟩
  | 48 => ⟨S_, .f32⟩
  | 49 => ⟨S20480, .f32⟩
  | 50 => ⟨S20480, .i1⟩
  | 51 => ⟨S20480, .f32⟩
  | 52 => ⟨S_, .f32⟩
  | 53 => ⟨S_, .f32⟩
  | 54 => ⟨S20480, .f32⟩
  | 55 => ⟨S20480, .f32⟩
  | 56 => ⟨S24576, .f32⟩
  | 57 => ⟨S_, .f32⟩
  | 58 => ⟨S24576, .f32⟩
  | 59 => ⟨S24576, .f32⟩
  | 60 => ⟨S_, .f32⟩
  | 61 => ⟨S24576, .f32⟩
  | 62 => ⟨S24576, .f32⟩
  | 63 => ⟨S_, .f32⟩
  | 64 => ⟨S24576, .f32⟩
  | 65 => ⟨S24576, .f32⟩
  | 66 => ⟨S_, .f32⟩
  | 67 => ⟨S24576, .f32⟩
  | 68 => ⟨S24576, .f32⟩
  | 69 => ⟨S_, .f32⟩
  | 70 => ⟨S4096, .f32⟩
  | 71 => ⟨S_, .f32⟩
  | 72 => ⟨S20480, .f32⟩
  | 73 => ⟨S24576, .f32⟩
  | 74 => ⟨S24576, .f32⟩
  | 75 => ⟨S_, .f32⟩
  | 76 => ⟨S_, .f32⟩
  | 77 => ⟨S_, .f32⟩
  | 78 => ⟨S24576, .f32⟩
  | 79 => ⟨S24576, .f32⟩
  | 80 => ⟨S_, .f32⟩
  | 81 => ⟨S24576, .f32⟩
  | 82 => ⟨S24576, .f32⟩
  | 83 => ⟨S24576, .f32⟩
  | 84 => ⟨S24576, .f32⟩
  | 85 => ⟨S_, .f32⟩
  | 86 => ⟨S24576, .f32⟩
  | 87 => ⟨S24576, .f32⟩
  | 88 => ⟨S24576, .f32⟩
  | 89 => ⟨S_, .f32⟩
  | 90 => ⟨S24576, .f32⟩
  | 91 => ⟨S24576, .f32⟩
  | 92 => ⟨S_, .f32⟩
  | 93 => ⟨S_, .f32⟩
  | 94 => ⟨S_, .f32⟩
  | 95 => ⟨S24576, .f32⟩
  | 96 => ⟨S24576, .f32⟩
  | 97 => ⟨S_, .f32⟩
  | 98 => ⟨S24576, .f32⟩
  | 99 => ⟨S24576, .f32⟩
  | 100 => ⟨S24576, .f32⟩
  | 101 => ⟨S24576, .f32⟩
  | 102 => ⟨S_, .f32⟩
  | 103 => ⟨S24576, .f32⟩
  | 104 => ⟨S24576, .f32⟩
  | 105 => ⟨S24576, .f32⟩
  | 106 => ⟨S_, .f32⟩
  | 107 => ⟨S_, .f32⟩
  | 108 => ⟨S_, .f32⟩
  | 109 => ⟨S_, .f32⟩
  | 110 => ⟨S4096x16, .f32⟩
  | 111 => ⟨S4096x784, .f32⟩
  | 112 => ⟨S_, .f32⟩
  | 113 => ⟨S4096, .f32⟩
  | 114 => ⟨S784x4096, .f32⟩
  | 115 => ⟨S4096x4096, .f32⟩
  | 116 => ⟨S4096x1, .f32⟩
  | 117 => ⟨S1x4096, .f32⟩
  | 118 => ⟨S4096x4096, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x32, .f32⟩

abbrev hbmTy0_1 (i : Nat) : BufTy := match i % 128 with
  | 0 => ⟨S_, .f32⟩
  | 1 => ⟨S4096x4096, .f32⟩
  | 2 => ⟨S4096x4096, .i1⟩
  | 3 => ⟨S_, .f32⟩
  | 4 => ⟨S_, .f32⟩
  | 5 => ⟨S4096x4096, .f32⟩
  | 6 => ⟨S4096x4096, .f32⟩
  | 7 => ⟨S_, .f32⟩
  | 8 => ⟨S4096x4096, .f32⟩
  | 9 => ⟨S4096x4096, .i1⟩
  | 10 => ⟨S4096x4096, .f32⟩
  | 11 => ⟨S_, .f32⟩
  | 12 => ⟨S_, .f32⟩
  | 13 => ⟨S4096x4096, .f32⟩
  | 14 => ⟨S4096x4096, .f32⟩
  | 15 => ⟨S4096x16, .f32⟩
  | 16 => ⟨S_, .f32⟩
  | 17 => ⟨S4096, .f32⟩
  | 18 => ⟨S16x4096, .f32⟩
  | 19 => ⟨S4096x4096, .f32⟩
  | 20 => ⟨S4096x1, .f32⟩
  | 21 => ⟨S1x4096, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .i1⟩
  | 35 => ⟨S_, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .i1⟩
  | 42 => ⟨S4096x4096, .f32⟩
  | 43 => ⟨S_, .f32⟩
  | 44 => ⟨S_, .f32⟩
  | 45 => ⟨S4096x4096, .f32⟩
  | 46 => ⟨S4096x4096, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x4096, .f32⟩
  | 54 => ⟨S4096x4096, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x4096, .f32⟩
  | 62 => ⟨S4096x4096, .f32⟩
  | 63 => ⟨S4096x4096, .f32⟩
  | 64 => ⟨S_, .f32⟩
  | 65 => ⟨S4096, .f32⟩
  | 66 => ⟨S4096x4096, .f32⟩
  | 67 => ⟨S_, .f32⟩
  | 68 => ⟨S4096, .f32⟩
  | 69 => ⟨S4096, .f32⟩
  | 70 => ⟨S4096x4096, .f32⟩
  | 71 => ⟨S_, .f32⟩
  | 72 => ⟨S4096, .f32⟩
  | 73 => ⟨S4096, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S4096x32, .f32⟩

abbrev hbmTy (i : Nat) : BufTy := match i / 128 with
  | 0 => hbmTy0_0 i
  | 1 => hbmTy0_1 i
  | _ => ⟨S4096x32, .f32⟩

abbrev bufTy : (tb : Table) → Fin (tcTables nBuf tb) → BufTy
  | .hbm, ⟨i, _⟩ => hbmTy i
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_call3_v0 : Ref sig .tc := ⟨.hbm, 53, rfl⟩
abbrev main_call3_v1 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_cst_17 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_18 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_19 : Ref sig .tc := ⟨.hbm, 89, rfl⟩
abbrev main_v52 : Ref sig .tc := ⟨.hbm, 90, rfl⟩
abbrev main_v53 : Ref sig .tc := ⟨.hbm, 91, rfl⟩
abbrev main_cst_20 : Ref sig .tc := ⟨.hbm, 92, rfl⟩
abbrev main_cst_21 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_22 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_23 : Ref sig .tc := ⟨.hbm, 106, rfl⟩
abbrev main_v60 : Ref sig .tc := ⟨.hbm, 107, rfl⟩
abbrev main_cst_24 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_25 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_26 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_27 : Ref sig .tc := ⟨.hbm, 125, rfl⟩
abbrev main_v75 : Ref sig .tc := ⟨.hbm, 126, rfl⟩
abbrev main_v76 : Ref sig .tc := ⟨.hbm, 127, rfl⟩
abbrev main_cst_28 : Ref sig .tc := ⟨.hbm, 128, rfl⟩
abbrev main_v77 : Ref sig .tc := ⟨.hbm, 129, rfl⟩
abbrev main_v78 : Ref sig .tc := ⟨.hbm, 130, rfl⟩
abbrev main_cst_29 : Ref sig .tc := ⟨.hbm, 131, rfl⟩
abbrev main_call6_v0 : Ref sig .tc := ⟨.hbm, 132, rfl⟩
abbrev main_call6_v1 : Ref sig .tc := ⟨.hbm, 133, rfl⟩
abbrev main_v79 : Ref sig .tc := ⟨.hbm, 134, rfl⟩
abbrev main_cst_30 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_31 : Ref sig .tc := ⟨.hbm, 139, rfl⟩
abbrev main_call7_v0 : Ref sig .tc := ⟨.hbm, 140, rfl⟩
abbrev main_call7_v1 : Ref sig .tc := ⟨.hbm, 141, rfl⟩
abbrev main_v83 : Ref sig .tc := ⟨.hbm, 142, rfl⟩
abbrev main_v84 : Ref sig .tc := ⟨.hbm, 143, rfl⟩
abbrev main_cst_32 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_33 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_cst_34 : Ref sig .tc := ⟨.hbm, 157, rfl⟩
abbrev main_v96 : Ref sig .tc := ⟨.hbm, 158, rfl⟩
abbrev main_v97 : Ref sig .tc := ⟨.hbm, 159, rfl⟩
abbrev main_cst_35 : Ref sig .tc := ⟨.hbm, 160, rfl⟩
abbrev main_v98 : Ref sig .tc := ⟨.hbm, 161, rfl⟩
abbrev main_v99 : Ref sig .tc := ⟨.hbm, 162, rfl⟩
abbrev main_cst_36 : Ref sig .tc := ⟨.hbm, 163, rfl⟩
abbrev main_call8_v0 : Ref sig .tc := ⟨.hbm, 164, rfl⟩
abbrev main_call8_v1 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_call9_v0 : Ref sig .tc := ⟨.hbm, 172, rfl⟩
abbrev main_call9_v1 : Ref sig .tc := ⟨.hbm, 173, rfl⟩
abbrev main_v104 : Ref sig .tc := ⟨.hbm, 174, rfl⟩
abbrev main_cst_39 : Ref sig .tc := ⟨.hbm, 175, rfl⟩
abbrev main_v105 : Ref sig .tc := ⟨.hbm, 176, rfl⟩
abbrev main_v106 : Ref sig .tc := ⟨.hbm, 177, rfl⟩
abbrev main_cst_40 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_cst_41 : Ref sig .tc := ⟨.hbm, 183, rfl⟩
abbrev main_v111 : Ref sig .tc := ⟨.hbm, 184, rfl⟩
abbrev main_v112 : Ref sig .tc := ⟨.hbm, 185, rfl⟩
abbrev main_cst_42 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_cst_43 : Ref sig .tc := ⟨.hbm, 192, rfl⟩
abbrev main_v118 : Ref sig .tc := ⟨.hbm, 193, rfl⟩
abbrev main_v119 : Ref sig .tc := ⟨.hbm, 194, rfl⟩
abbrev main_cst_44 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_cst_45 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_46 : Ref sig .tc := ⟨.hbm, 204, rfl⟩
abbrev main_v127 : Ref sig .tc := ⟨.hbm, 205, rfl⟩
abbrev main_cst_47 : Ref sig .tc := ⟨.hbm, 206, rfl⟩
abbrev main_v128 : Ref sig .tc := ⟨.hbm, 207, rfl⟩
abbrev main_v129 : Ref sig .tc := ⟨.hbm, 208, rfl⟩
abbrev main_cst_48 : Ref sig .tc := ⟨.hbm, 209, rfl⟩
abbrev main_v130 : Ref sig .tc := ⟨.hbm, 210, rfl⟩
abbrev main_cst_49 : Ref sig .tc := ⟨.hbm, 211, rfl⟩
abbrev main_v131 : Ref sig .tc := ⟨.hbm, 212, rfl⟩
abbrev main_v132 : Ref sig .tc := ⟨.hbm, 213, rfl⟩

abbrev nD : Nat := 1
abbrev τ : Topo := Topo.v7x

variable {F : FTy → Type} [FloatOps F]

class Facts₀ : Prop where
  slices_S4096x32_S4096x16_0_0 : S4096x32.Slices ![0, 0] S4096x16
  slices_S4096x32_S4096x16_0_16 : S4096x32.Slices ![0, 16] S4096x16
  bcast_S4096x16_S4096x5x16_0_2 : S4096x16.BroadcastsInDim S4096x5x16 (![0, 2] : Fin 2 → Fin S4096x5x16.rank)
  shapeCasts_S4096x5x16_S20480x16 : S4096x5x16.ShapeCasts S20480x16
  bcast_S_S20480 : S_.BroadcastsInDim S20480 (![] : Fin 0 → Fin S20480.rank)
  bcast_S20480_S20480x1_0 : S20480.BroadcastsInDim S20480x1 (![0] : Fin 1 → Fin S20480x1.rank)
  reducesTo_S4096x16_S4096_d1 : S4096x16.ReducesTo [1] S4096
  h_S_ : 0 < S_.numel
  bcast_S_S4096 : S_.BroadcastsInDim S4096 (![] : Fin 0 → Fin S4096.rank)
  reducesTo_S20480x16_S20480_d1 : S20480x16.ReducesTo [1] S20480
  concatenates_S4096_S20480_S24576_d0 : Shape.Concatenates [S4096, S20480] S24576 0
  bcast_S_S24576 : S_.BroadcastsInDim S24576 (![] : Fin 0 → Fin S24576.rank)
  reducesTo_S24576_S_d0 : S24576.ReducesTo [0] S_
  reducesTo_S4096x784_S4096_d1 : S4096x784.ReducesTo [1] S4096
  transposes_S4096x784_S784x4096_1_0 : S4096x784.Transposes [1, 0] S784x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x16_S16x4096_1_0 : S4096x16.Transposes [1, 0] S16x4096
  reducesTo_S4096x4096_S4096_d1 : S4096x4096.ReducesTo [1] S4096
  bcast_S_S4096x1 : S_.BroadcastsInDim S4096x1 (![] : Fin 0 → Fin S4096x1.rank)
  reducesTo_S4096_S_d0 : S4096.ReducesTo [0] S_
  gather_S20480x16_S20480x1_S20480x16_1_0_n_n_0_1_116_wf : GatherDims.WF S20480x16 S20480x1 S20480x16 [1] [0] [] [0] [] 1 ![1, 16]
  dot_S4096x784_S784x4096_S4096x4096_1_0_0_1_n_n_wf : DotDims.WF S4096x784 S784x4096 S4096x4096 [1] [0] [0] [1] [] []
  dot_S4096x16_S16x4096_S4096x4096_1_0_0_1_n_n_wf : DotDims.WF S4096x16 S16x4096 S4096x4096 [1] [0] [0] [1] [] []

variable [Facts₀]

def gather_S20480x16_S20480x1_S20480x16_1_0_n_n_0_1_116 : GatherDims S20480x16 S20480x1 S20480x16 where
  offsetDims := [1]
  collapsedSliceDims := [0]
  operandBatchingDims := []
  startIndicesBatchingDims := []
  startIndexMap := [0]
  indexVectorDim := 1
  sliceSizes := ![1, 16]
  wf := gather_S20480x16_S20480x1_S20480x16_1_0_n_n_0_1_116_wf
def dot_S4096x784_S784x4096_S4096x4096_1_0_0_1_n_n : DotDims S4096x784 S784x4096 S4096x4096 where
  lhsContracting := [1]
  rhsContracting := [0]
  lhsNonContracting := [0]
  rhsNonContracting := [1]
  lhsBatch := []
  rhsBatch := []
  wf := dot_S4096x784_S784x4096_S4096x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.BitsBody.lean ====
/-
  The frame data of the row-correlation kernel: the buffers' contents when the region is entered (after the
  thirteen stretches of host operations before it), each window's block at a grid point, what the body leaves in
  the output window's buffer — the one whole-block store of the correlation column computed from the eight input
  blocks —, the body's triple, and the proof data of the pipeline. Two pairs of input windows read ONE array each
  (the feature matrix as a block of 128 rows and whole; the embedding matrix likewise): the proof data hold each of
  those arrays at a half share per window.
-/
import proofs.«140878_j88596585382792_1_alg».proof.Proof.Gen.Kernel.Launch
import proofs.«140878_j88596585382792_1_alg».proof.Proof.Gen.Kernel.Skeleton
import proofs.«140878_j88596585382792_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents, stretch by stretch of the host operations before the region -/

/-- Core `c`'s buffers at launch, -/
abbrev W0 (c : Dev nD) : Valuation τ sig (Elt F) := fun b => m (c, b)
/-- after stretch 1, -/
abbrev W1 (c : Dev nD) : Valuation τ sig (Elt F) := StableHlo.after hostOps0 (W0 m c)
/-- after stretch 2, -/
abbrev W2 (c : Dev nD) : Valuation τ sig (Elt F) := StableHlo.after hostOps0_1 (W1 m c)
/-- after stretch 3, -/
abbrev W3 (c : Dev nD) : Valuation τ sig (Elt F) := StableHlo.after hostOps0_2 (W2 m c)
/-- after stretch 4, -/
abbrev W4 (c : Dev nD) : Valuation τ sig (Elt F) := StableHlo.after hostOps0_3 (W3 m c)
/-- after stretch 5, -/
abbrev W5 (c : Dev nD) : Valuation τ sig (Elt F) := StableHlo.after hostOps0_4 (W4 m c)
/-- after stretch 6, -/
abbrev W6 (c : Dev nD) : Valuation τ sig (Elt F) := StableHlo.after hostOps0_5 (W5 m c)
/-- after stretch 7, -/
abbrev W7 (c : Dev nD) : Valuation τ sig (Elt F) := StableHlo.after hostOps0_6 (W6 m c)
/-- after stretch 8, -/
abbrev W8 (c : Dev nD) : Valuation τ sig (Elt F) := StableHlo.after hostOps0_7 (W7 m c)
/-- after stretch 9, -/
abbrev W9 (c : Dev nD) : Valuation τ sig (Elt F) := StableHlo.after hostOps0_8 (W8 m c)
/-- after stretch 10, -/
abbrev W10 (c : Dev nD) : Valuation τ sig (Elt F) := StableHlo.after hostOps0_9 (W9 m c)
/-- after stretch 11, -/
abbrev W11 (c : Dev nD) : Valuation τ sig (Elt F) := StableHlo.after hostOps0_10 (W10 m c)
/-- after stretch 12, -/
abbrev W12 (c : Dev nD) : Valuation τ sig (Elt F) := StableHlo.after hostOps0_11 (W11 m c)
/-- after stretch 13, -/
abbrev W13 (c : Dev nD) : Valuation τ sig (Elt F) := StableHlo.after hostOps0_12 (W12 m c)

/-- and as the region finds them. -/
abbrev V (c : Dev nD) (b : Ref sig .tc) : Buf (Elt F) ((c : Thread nD τ).loc b) := W13 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev r_S128x784 : Rect S128x784 := Rect.unit (s := S128x784) ![0, 0] S128x784.size inb_S128x784_S128x784_0_0
abbrev r_S4096x784 : Rect S4096x784 := Rect.unit (s := S4096x784) ![0, 0] S4096x784.size inb_S4096x784_S4096x784_0_0
abbrev r_S128x16 : Rect S128x16 := Rect.unit (s := S128x16) ![0, 0] S128x16.size inb_S128x16_S128x16_0_0
abbrev r_S4096x16 : Rect S4096x16 := Rect.unit (s := S4096x16) ![0, 0] S4096x16.size inb_S4096x16_S4096x16_0_0
abbrev r_S128x1 : Rect S128x1 := Rect.unit (s := S128x1) ![0, 0] S128x1.size inb_S128x1_S128x1_0_0
abbrev r_S1x4096 : Rect S1x4096 := Rect.unit (s := S1x4096) ![0, 0] S1x4096.size inb_S1x4096_S1x4096_0_0

/-- The output window's buffer after the body, from the eight input blocks: its one store, of the whole block. -/
def out8 (x0 : Vec F S128x784 .f32) (x1 : Vec F S4096x784 .f32) (x2 : Vec F S128x16 .f32) (x3 : Vec F S4096x16 .f32) (x4 : Vec F S128x1 .f32) (x5 : Vec F S1x4096 .f32) (x6 : Vec F S128x1 .f32) (x7 : Vec F S1x4096 .f32) : Vec F S128x1 .f32 :=
  View.canon [⟨r_S128x1, k0_pay1 (k0_pay2 (View.ld x0 r_S128x784) (View.ld x1 r_S4096x784) (View.ld x4 r_S128x1) (View.ld x5 r_S1x4096)) (k0_pay3 (View.ld x2 r_S128x16) (View.ld x3 r_S4096x16)) (k0_pay4 (View.ld x6 r_S128x1)) (k0_pay5 (View.ld x7 r_S1x4096))⟩]

/-- The store tiles the buffer, so it covers it. -/
theorem cover8 (p0 : Vec F S128x1 .f32) (y : S128x1.Idx) :
    ∃ pc ∈ ([⟨r_S128x1, p0⟩] : List (View.Piece (Elt F) S128x1 .f32)), y ∈ pc.1.set :=
  View.cover_of_tiled [⟨r_S128x1, p0⟩] S128x1.size (by rfl) y

/-! ## The body's triple -/

set_option maxHeartbeats 2000000 in
/-- The kernel body on whole staging memrefs, the inputs' at contents `xW` and the output's at anything, runs to the
    continuation holding the inputs' as they were and the output's at `out8` of them. -/
theorem sound_kernel (c : Dev nD) (E : Set ℕ) (i : grid0.Coords) (arg1 : Memref sig .tc .vmem S128x784 .f32) (harg1 : arg1.IsWhole) (arg2 : Memref sig .tc .vmem S4096x784 .f32) (harg2 : arg2.IsWhole) (arg3 : Memref sig .tc .vmem S128x16 .f32) (harg3 : arg3.IsWhole) (arg4 : Memref sig .tc .vmem S4096x16 .f32) (harg4 : arg4.IsWhole) (arg5 : Memref sig .tc .vmem S128x1 .f32) (harg5 : arg5.IsWhole) (arg6 : Memref sig .tc .vmem S1x4096 .f32) (harg6 : arg6.IsWhole) (arg7 : Memref sig .tc .vmem S128x1 .f32) (harg7 : arg7.IsWhole) (arg8 : Memref sig .tc .vmem S1x4096 .f32) (harg8 : arg8.IsWhole) (arg9 : Memref sig .tc .vmem S128x1 .f32) (harg9 : arg9.IsWhole)
    (x0 : Vec F S128x784 .f32) (x1 : Vec F S4096x784 .f32) (x2 : Vec F S128x16 .f32) (x3 : Vec F S4096x16 .f32) (x4 : Vec F S128x1 .f32) (x5 : Vec F S1x4096 .f32) (x6 : Vec F S128x1 .f32) (x7 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7)) -∗ K ⟨⟩))
      ⊢ wp frame (wpE (defs₀ (F := F)) Variants.none c none) E (cc0__global_loss_kernel i arg1 harg1 arg2 harg2 arg3 harg3 arg4 harg4 arg5 harg5 arg6 harg6 arg7 harg7 arg8 harg8 arg9 harg9) K := by
  simp only [cc0__global_loss_kernel_eq_skeleton]; unfold cc0__global_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-! ## The pipeline's proof data -/

/-- The proof data on core `c`: the arrays as the region finds them; after the body at point `t` each input's buffer
    at its block and the output's at `out8` of the input blocks; the invariant the scoped rest and the generator
    register, untouched; nothing owed. The feature matrix is held at a half share by each of windows 0 and 1, the
    embedding matrix by each of windows 2 and 3, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsShare.lean ====
/-
  Two pairs of the kernel's input windows read one array each. The pipeline holds every window's array at that window's
  share, so at the region's entry each shared array, held whole, is dealt in two halves, one per window on it, and at
  the exit — the input arrays unchanged — the halves are joined again. This module states both entailments over the
  seven distinct buffers behind the nine windows, and the buffers' contents at the exit: the region's result array
  at what the write-backs made it, every other buffer as the region found it.
-/
import proofs.«140878_j88596585382792_1_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The seven distinct buffers behind the nine windows' arrays, in order. -/
abbrev arrRefs : List (Ref sig .tc) := [main_arg1, main_v62, main_v67, main_v68, main_v69, main_v70, main_v71]

abbrev arrList : List (DevRef τ sig) := arrRefs.map (Proc.devRef .tc)

abbrev arrSet : Finset (DevRef τ sig) := arrList.toFinset

theorem arrList_nodup : (arrList : List (DevRef τ sig)).Nodup := List.Nodup.map (Proc.devRef_injective _) (by decide)

theorem mem_arrSet (r : Ref sig .tc) (hr : r ∈ arrRefs) : Proc.devRef (τ := τ) .tc r ∈ arrSet :=
  List.mem_toFinset.mpr (List.mem_map.mpr ⟨r, hr, rfl⟩)

theorem arrSet_sub : arrSet ⊆ Pipeline.ucRefs τ sig := fun b hb => by
  obtain ⟨r, hr, rfl⟩ := List.mem_map.mp (List.mem_toFinset.mp hb)
  have hs : r.isScoped = false := (by decide : ∀ r ∈ arrRefs, r.isScoped = false) r hr
  exact Finset.mem_filter.mpr ⟨StableHlo.devRef_mem_tcRefs r, fun h => Bool.false_ne_true (hs.symm.trans h)⟩

/-- Those buffers held at a valuation, one by one. -/
theorem held_arrSet (c : Dev nD) (Wv : Valuation τ sig (Elt F)) :
    (StableHlo.held (c : Thread nD τ) arrSet Wv : sProp 𝕄)
      = iprop((((c : Thread nD τ).1, Proc.devRef .tc main_arg1) ↦{fullShare} Wv (Proc.devRef .tc main_arg1))
        ∗ (((c : Thread nD τ).1, Proc.devRef .tc main_v62) ↦{fullShare} Wv (Proc.devRef .tc main_v62))
        ∗ (((c : Thread nD τ).1, Proc.devRef .tc main_v67) ↦{fullShare} Wv (Proc.devRef .tc main_v67))
        ∗ (((c : Thread nD τ).1, Proc.devRef .tc main_v68) ↦{fullShare} Wv (Proc.devRef .tc main_v68))
        ∗ (((c : Thread nD τ).1, Proc.devRef .tc main_v69) ↦{fullShare} Wv (Proc.devRef .tc main_v69))
        ∗ (((c : Thread nD τ).1, Proc.devRef .tc main_v70) ↦{fullShare} Wv (Proc.devRef .tc main_v70))
        ∗ (((c : Thread nD τ).1, Proc.devRef .tc main_v71) ↦{fullShare} Wv (Proc.devRef .tc main_v71))) := by
  unfold StableHlo.held
  exact bigSep_eq_bigSepL arrList arrList_nodup _

/-- The windows' arrays are whole buffers: each window holds all of its array's elements, at its share. -/
theorem arrays_univ (c : Dev nD) (Fn : (w : Fin cfg0.W) → Buf (Elt F) ((cfg0.win w).arr.view.loc (c : Thread nD τ))) :
    ((dats m 0 c).arrays Fn : sProp 𝕄)
      = bigSep Finset.univ fun w : Fin cfg0.W => (((c : Thread nD τ).loc (Pipeline.arrRef spec0 w)) ↦{(dats m 0 c).share w} Fn w : sProp 𝕄) := by
  unfold Pipeline.Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl

/-- The seven buffers whole at a valuation are the nine windows' arrays at the contents the valuation gives each window's
    array, the two shared arrays each dealt in halves. -/
theorem arrays_of_held (c : Dev nD) (Wv : Valuation τ sig (Elt F)) :
    (StableHlo.held (c : Thread nD τ) arrSet Wv : sProp 𝕄)
      ⊢ (dats m 0 c).arrays fun w => Wv (Proc.devRef .tc (Pipeline.arrRef spec0 w)) := by
  rw [held_arrSet, arrays_univ, bigSep_W0]
  simp only [share0, share1, share2, share3, share4, share5, share6, share7, share8]
  iintro ⟨H1, H62, H67, H68, H69, H70, H71⟩
  ihave G1 := (pointsTo_share (PosShare.mem_left_op_right fullShare)).1 $$ H1
  icases G1 with ⟨G1l, G1r⟩
  ihave G62 := (pointsTo_share (PosShare.mem_left_op_right fullShare)).1 $$ H62
  icases G62 with ⟨G62l, G62r⟩
  isplitl [G1l]; · iexact G1l
  isplitl [G1r]; · iexact G1r
  isplitl [G62l]; · iexact G62l
  isplitl [G62r]; · iexact G62r
  isplitl [H67]; · iexact H67
  isplitl [H68]; · iexact H68
  isplitl [H69]; · iexact H69
  isplitl [H70]; · iexact H70
  iexact H71

/-- Conversely the nine windows' arrays, the windows on one array holding the same contents, are the seven buffers whole:
    the halves joined. -/
theorem held_of_arrays (c : Dev nD) (Wv : Valuation τ sig (Elt F)) :
    ((dats m 0 c).arrays fun w => Wv (Proc.devRef .tc (Pipeline.arrRef spec0 w)) : sProp 𝕄)
      ⊢ StableHlo.held (c : Thread nD τ) arrSet Wv := by
  rw [held_arrSet, arrays_univ, bigSep_W0]
  simp only [share0, share1, share2, share3, share4, share5, share6, share7, share8]
  iintro ⟨G1l, G1r, G62l, G62r, H67, H68, H69, H70, H71⟩
  isplitl [G1l G1r]
  · iapply (pointsTo_share (PosShare.mem_left_op_right fullShare)).2
    isplitl [G1l]; · iexact G1l
    iexact G1r
  isplitl [G62l G62r]
  · iapply (pointsTo_share (PosShare.mem_left_op_right fullShare)).2
    isplitl [G62l]; · iexact G62l
    iexact G62r
  isplitl [H67]; · iexact H67
  isplitl [H68]; · iexact H68
  isplitl [H69]; · iexact H69
  isplitl [H70]; · iexact H70
  iexact H71

/-- ENTRY: at the region-entry contents. -/
theorem arrays_entry (c : Dev nD) :
    (StableHlo.held (c : Thread nD τ) arrSet (W13 m c) : sProp 𝕄) ⊢ (dats m 0 c).arrays ((dats m 0 c).arrAt · 0) := by
  have h : ((dats m 0 c).arrAt · 0) = fun w => W13 m c (Proc.devRef .tc (Pipeline.arrRef spec0 w)) := funext fun w => A_eq m c w
  rw [h]
  exact arrays_of_held m c (W13 m c)

/-- The buffers' contents when the region is left: the result array at what the write-backs of all the points made
    it, every other buffer as the region found it. -/
def W14 (c : Dev nD) : Valuation τ sig (Elt F) :=
  Function.update (W13 m c) (Proc.devRef .tc main_v71) ((dats m 0 c).arrAt 8 cfg0.N)

theorem W14_v71 (c : Dev nD) : W14 m c (Proc.devRef .tc main_v71) = (dats m 0 c).arrAt 8 cfg0.N := by
  unfold W14; exact Function.update_self ..

theorem W14_of_ne (c : Dev nD) (b : DevRef τ sig) (hb : b ≠ Proc.devRef .tc main_v71) : W14 m c b = W13 m c b := by
  unfold W14; exact Function.update_of_ne hb ..

theorem W14_ref (c : Dev nD) (r : Ref sig .tc) (hr : r ≠ main_v71) : W14 m c (Proc.devRef .tc r) = W13 m c (Proc.devRef .tc r) :=
  W14_of_ne m c _ (StableHlo.devRef_ne_of_ne hr)

/-- An input window's array ends as the region found it. -/
theorem arrAt_in_exit (c : Dev nD) (w : Fin cfg0.W) (hw : (cfg0.win w).isOut = false) (hne : Pipeline.arrRef spec0 w ≠ main_v71) :
    (dats m 0 c).arrAt w cfg0.N = W14 m c (Proc.devRef .tc (Pipeline.arrRef spec0 w)) :=
  ((dats m 0 c).arrAt_in w hw _).trans ((A_eq m c w).trans (W14_ref m c (Pipeline.arrRef spec0 w) hne).symm)

/-- EXIT: the nine windows' arrays at their final contents — the inputs' unchanged, their halves joined — are the seven
    buffers whole at the exit contents. -/
theorem arrays_exit (c : Dev nD) :
    ((dats m 0 c).arrays ((dats m 0 c).arrAt · cfg0.N) : sProp 𝕄) ⊢ StableHlo.held (c : Thread nD τ) arrSet (W14 m c) := by
  have hin : ∀ w : Fin 9, w ≠ 8 → (win0 w).isOut = false ∧ Pipeline.arrRef spec0 w ≠ main_v71 := by decide
  have h : ((dats m 0 c).arrAt · cfg0.N) = fun w => W14 m c (Proc.devRef .tc (Pipeline.arrRef spec0 w)) := funext fun w => by
    by_cases hw : w = 8
    · subst hw; exact (W14_v71 m c).symm
    · exact arrAt_in_exit m c w (hin w hw).1 (hin w hw).2
  rw [h]
  exact held_of_arrays m c (W14 m c)

/-- Off the seven buffers the exit contents are the entry contents. -/
theorem held_rest_exit (c : Dev nD) :
    (StableHlo.held (c : Thread nD τ) (Pipeline.ucRefs τ sig \ arrSet) (W13 m c) : sProp 𝕄)
      = StableHlo.held (c : Thread nD τ) (Pipeline.ucRefs τ sig \ arrSet) (W14 m c) :=
  StableHlo.held_congr _ fun b hb => (W14_of_ne m c b fun h => (Finset.mem_sdiff.mp hb).2 (h ▸ mem_arrSet main_v71 (by decide))).symm

end Cert.Kernel.Hand

end
-- ==== Proof.BitsRun.lean ====
/-
  The run of @main: thirteen stretches of host operations, the kernel region, one more stretch. Between two of
  them the core holds its unscoped buffers whole at a valuation — each stretch advances it by its operations, the
  region by the write-backs into its result array — beside what it owes (nothing) and its generator register.
  The region is entered by dealing the seven buffers behind its windows to the pipeline (the two shared arrays in
  halves) and left by joining them again; everything else bypasses it. Conclusion: every weakly fair execution
  terminates, and every unscoped buffer ends at the last valuation.
-/
import proofs.«140878_j88596585382792_1_alg».proof.Proof.BitsShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core's `owes` (nothing) and its generator register. -/
abbrev R (c : Dev nD) : sProp 𝕄 :=
  iprop((∃ W, owes (c : Thread nD τ) (0 : CellTallies nD τ sig Unit) W) ∗ ∃ r, prngReg c r)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over the unscoped buffers at a valuation. -/
def hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) Wv R

/-- The buffers' contents at the end: the last stretch run from the region's exit. -/
abbrev W15 (c : Dev nD) : Valuation τ sig (Elt F) := StableHlo.after hostOps1 (W14 m c)

-- an entailment between thread states stated over `cfgs p` at the pinned configuration unifies only when
-- unification may unfold plain definitions in a metavariable's type
set_option backward.isDefEq.respectTransparency.types false in
/-- THE REGION: the decided layout, no semaphore of the kernel's own, the body obligation; entered from the buffers at
    the thirteenth valuation, left with them at the exit valuation. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := StableHlo.held (c : Thread nD τ) (Pipeline.ucRefs τ sig \ arrSet) (W13 m c)
  hentry c := by
    rw [StableHlo.held_sub_split (c : Thread nD τ) arrSet_sub (W13 m c)]
    iintro ⟨⟨⟨Ha, Hz⟩, HO, Hp⟩, -, -⟩
    ihave Ha' := (arrays_entry m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [StableHlo.held_sub_split (c : Thread nD τ) arrSet_sub (W14 m c), ← held_rest_exit]
    iintro ⟨Ha, HO, Hp, Hz⟩
    ihave Ha' := (arrays_exit m c) $$ Ha
    imodintro
    isplitl [Ha' Hz]
    · isplitl [Ha']; · iexact Ha'
      iexact Hz
    isplitl [HO]
    · unfold Pipeline.Dat.owesAt Pipeline.owesWithin
      icases HO with ⟨%W, -, HO⟩; iexists W; iexact HO
    iexact Hp

/-- @main as the list of its fifteen segments. -/
abbrev segs : List (Pipeline.Seg (pcfgs (F := F)) adm (dats m) () defs₀ 𝒱₀ L lv) :=
  [.host (hseg hostOps0 hostOps0_sub hostOps0_fresh (W0 m)),
   .host (hseg hostOps0_1 hostOps0_1_sub hostOps0_1_fresh (W1 m)),
   .host (hseg hostOps0_2 hostOps0_2_sub hostOps0_2_fresh (W2 m)),
   .host (hseg hostOps0_3 hostOps0_3_sub hostOps0_3_fresh (W3 m)),
   .host (hseg hostOps0_4 hostOps0_4_sub hostOps0_4_fresh (W4 m)),
   .host (hseg hostOps0_5 hostOps0_5_sub hostOps0_5_fresh (W5 m)),
   .host (hseg hostOps0_6 hostOps0_6_sub hostOps0_6_fresh (W6 m)),
   .host (hseg hostOps0_7 hostOps0_7_sub hostOps0_7_fresh (W7 m)),
   .host (hseg hostOps0_8 hostOps0_8_sub hostOps0_8_fresh (W8 m)),
   .host (hseg hostOps0_9 hostOps0_9_sub hostOps0_9_fresh (W9 m)),
   .host (hseg hostOps0_10 hostOps0_10_sub hostOps0_10_fresh (W10 m)),
   .host (hseg hostOps0_11 hostOps0_11_sub hostOps0_11_fresh (W11 m)),
   .host (hseg hostOps0_12 hostOps0_12_sub hostOps0_12_fresh (W12 m)),
   .region (reg0 m),
   .host (hseg hostOps1 hostOps1_sub hostOps1_fresh (W14 m))]

/-- The physical post: every unscoped buffer at the last valuation. -/
def QC : PUnit × MemSt nD τ sig (Elt F) → Prop := fun r =>
  ∀ c : Dev nD, ∀ b ∈ (Finset.univ.filter fun b : Ref sig .tc => ¬ b.isScoped), r.2.mem ((c : Thread nD τ).loc b) = W15 m c b

set_option backward.isDefEq.respectTransparency.types false in
set_option maxHeartbeats 1000000 in
/-- At the compiled mesh, for any values, from any memory with zero counters: every weakly fair execution of @main on the
    TensorCores terminates, nothing faulting, and every final state has every unscoped buffer at the last valuation. -/
theorem run_main : θ_run defs (onTc (τ := τ) (main (F := F))) (s₀ m ρ) (QC m) :=
  Pipeline.θ_run_regions_kit (pcfgs (F := F)) adm (dats m) () cellOf_inj emb₁ defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W15 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m c) ∗ R c) ⊢ _
      iintro ⟨Hh, HO, Hp⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      iexists _; iexact Hp)
    (QY := fun c s => ∀ b ∈ (Finset.univ.filter fun b : Ref sig .tc => ¬ b.isScoped), s.mem ((c : Thread nD τ).loc b) = W15 m c b)
    (hfin := fun c s' => by
      rw [← Pipeline.unscopedBufs_held c (W15 m c)]
      unfold unscopedBufs
      iintro ⟨⟨HU, -⟩, HSI⟩
      imodintro
      iapply (pointsTo_read_all (Finset.univ.filter fun b : Ref sig .tc => ¬ b.isScoped) (fun b => (c : Thread nD τ).loc b) (fun b => W15 m c b) s')
      isplitl [HU] <;> iassumption)
    (hQ := fun _ h => h)

end Cert.Kernel.Hand

end
-- ==== Proof.BitsFrame.lean ====
/-
  The frame: no host operation and no write-back touches an argument array, so each ends as it was launched.
-/
import proofs.«140878_j88596585382792_1_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Closes `StableHlo.after ops V b = V b` for a literal stretch `ops` none of whose operations writes `b`. -/
local macro "keeps" : tactic =>
  `(tactic| (refine StableHlo.after_of_forall_not_mem _ _ (List.forall_iff_forall_mem.mp ?_)
             simp only [List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- An argument's reference. -/
abbrev IsArg (r : Ref sig .tc) : Prop := r = main_arg0 ∨ r = main_arg1 ∨ r = main_arg2

theorem keep_hostOps0 (Wv : Valuation τ sig (Elt F)) (r : Ref sig .tc) (hr : IsArg r) :
    StableHlo.after hostOps0 Wv (Proc.devRef .tc r) = Wv (Proc.devRef .tc r) := by
  rcases hr with rfl | rfl | rfl <;> keeps
theorem keep_hostOps0_1 (Wv : Valuation τ sig (Elt F)) (r : Ref sig .tc) (hr : IsArg r) :
    StableHlo.after hostOps0_1 Wv (Proc.devRef .tc r) = Wv (Proc.devRef .tc r) := by
  rcases hr with rfl | rfl | rfl <;> keeps
theorem keep_hostOps0_2 (Wv : Valuation τ sig (Elt F)) (r : Ref sig .tc) (hr : IsArg r) :
    StableHlo.after hostOps0_2 Wv (Proc.devRef .tc r) = Wv (Proc.devRef .tc r) := by
  rcases hr with rfl | rfl | rfl <;> keeps
theorem keep_hostOps0_3 (Wv : Valuation τ sig (Elt F)) (r : Ref sig .tc) (hr : IsArg r) :
    StableHlo.after hostOps0_3 Wv (Proc.devRef .tc r) = Wv (Proc.devRef .tc r) := by
  rcases hr with rfl | rfl | rfl <;> keeps
theorem keep_hostOps0_4 (Wv : Valuation τ sig (Elt F)) (r : Ref sig .tc) (hr : IsArg r) :
    StableHlo.after hostOps0_4 Wv (Proc.devRef .tc r) = Wv (Proc.devRef .tc r) := by
  rcases hr with rfl | rfl | rfl <;> keeps
theorem keep_hostOps0_5 (Wv : Valuation τ sig (Elt F)) (r : Ref sig .tc) (hr : IsArg r) :
    StableHlo.after hostOps0_5 Wv (Proc.devRef .tc r) = Wv (Proc.devRef .tc r) := by
  rcases hr with rfl | rfl | rfl <;> keeps
theorem keep_hostOps0_6 (Wv : Valuation τ sig (Elt F)) (r : Ref sig .tc) (hr : IsArg r) :
    StableHlo.after hostOps0_6 Wv (Proc.devRef .tc r) = Wv (Proc.devRef .tc r) := by
  rcases hr with rfl | rfl | rfl <;> keeps
theorem keep_hostOps0_7 (Wv : Valuation τ sig (Elt F)) (r : Ref sig .tc) (hr : IsArg r) :
    StableHlo.after hostOps0_7 Wv (Proc.devRef .tc r) = Wv (Proc.devRef .tc r) := by
  rcases hr with rfl | rfl | rfl <;> keeps
theorem keep_hostOps0_8 (Wv : Valuation τ sig (Elt F)) (r : Ref sig .tc) (hr : IsArg r) :
    StableHlo.after hostOps0_8 Wv (Proc.devRef .tc r) = Wv (Proc.devRef .tc r) := by
  rcases hr with rfl | rfl | rfl <;> keeps
theorem keep_hostOps0_9 (Wv : Valuation τ sig (Elt F)) (r : Ref sig .tc) (hr : IsArg r) :
    StableHlo.after hostOps0_9 Wv (Proc.devRef .tc r) = Wv (Proc.devRef .tc r) := by
  rcases hr with rfl | rfl | rfl <;> keeps
theorem keep_hostOps0_10 (Wv : Valuation τ sig (Elt F)) (r : Ref sig .tc) (hr : IsArg r) :
    StableHlo.after hostOps0_10 Wv (Proc.devRef .tc r) = Wv (Proc.devRef .tc r) := by
  rcases hr with rfl | rfl | rfl <;> keeps
theorem keep_hostOps0_11 (Wv : Valuation τ sig (Elt F)) (r : Ref sig .tc) (hr : IsArg r) :
    StableHlo.after hostOps0_11 Wv (Proc.devRef .tc r) = Wv (Proc.devRef .tc r) := by
  rcases hr with rfl | rfl | rfl <;> keeps
theorem keep_hostOps0_12 (Wv : Valuation τ sig (Elt F)) (r : Ref sig .tc) (hr : IsArg r) :
    StableHlo.after hostOps0_12 Wv (Proc.devRef .tc r) = Wv (Proc.devRef .tc r) := by
  rcases hr with rfl | rfl | rfl <;> keeps
theorem keep_hostOps1 (Wv : Valuation τ sig (Elt F)) (r : Ref sig .tc) (hr : IsArg r) :
    StableHlo.after hostOps1 Wv (Proc.devRef .tc r) = Wv (Proc.devRef .tc r) := by
  rcases hr with rfl | rfl | rfl <;> keeps

theorem arg_ne_v71 (r : Ref sig .tc) (hr : IsArg r) : r ≠ main_v71 := by
  rcases hr with rfl | rfl | rfl <;> decide

/-- An argument's buffer holds at the end what it held at launch. -/
theorem arg_kept (c : Dev nD) (r : Ref sig .tc) (hr : IsArg r) : W15 m c (Proc.devRef .tc r) = m ((c : Thread nD τ).loc r) :=
  (keep_hostOps1 (W14 m c) r hr).trans <| (W14_ref m c r (arg_ne_v71 r hr)).trans <|
  (keep_hostOps0_12 (W12 m c) r hr).trans <|
  (keep_hostOps0_11 (W11 m c) r hr).trans <|
  (keep_hostOps0_10 (W10 m c) r hr).trans <|
  (keep_hostOps0_9 (W9 m c) r hr).trans <|
  (keep_hostOps0_8 (W8 m c) r hr).trans <|
  (keep_hostOps0_7 (W7 m c) r hr).trans <|
  (keep_hostOps0_6 (W6 m c) r hr).trans <|
  (keep_hostOps0_5 (W5 m c) r hr).trans <|
  (keep_hostOps0_4 (W4 m c) r hr).trans <|
  (keep_hostOps0_3 (W3 m c) r hr).trans <|
  (keep_hostOps0_2 (W2 m c) r hr).trans <|
  (keep_hostOps0_1 (W1 m c) r hr).trans <|
  (keep_hostOps0 (W0 m c) r hr).trans <|
  rfl

/-- An argument's buffer holds when the region is entered what it held at launch. -/
theorem arg_entry (c : Dev nD) (r : Ref sig .tc) (hr : IsArg r) : W13 m c (Proc.devRef .tc r) = m ((c : Thread nD τ).loc r) :=
  (keep_hostOps0_12 (W12 m c) r hr).trans <|
  (keep_hostOps0_11 (W11 m c) r hr).trans <|
  (keep_hostOps0_10 (W10 m c) r hr).trans <|
  (keep_hostOps0_9 (W9 m c) r hr).trans <|
  (keep_hostOps0_8 (W8 m c) r hr).trans <|
  (keep_hostOps0_7 (W7 m c) r hr).trans <|
  (keep_hostOps0_6 (W6 m c) r hr).trans <|
  (keep_hostOps0_5 (W5 m c) r hr).trans <|
  (keep_hostOps0_4 (W4 m c) r hr).trans <|
  (keep_hostOps0_3 (W3 m c) r hr).trans <|
  (keep_hostOps0_2 (W2 m c) r hr).trans <|
  (keep_hostOps0_1 (W1 m c) r hr).trans <|
  (keep_hostOps0 (W0 m c) r hr).trans <|
  rfl

theorem unscoped_mem (r : Ref sig .tc) (hr : r.isScoped = false) : r ∈ (Finset.univ.filter fun b : Ref sig .tc => ¬ b.isScoped) :=
  Finset.mem_filter.mpr ⟨Finset.mem_univ _, fun h => Bool.false_ne_true (hr.symm.trans h)⟩

/-- THE FRAME: every weakly fair execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0 (unscoped_mem main_arg0 rfl)).trans (arg_kept m c main_arg0 (.inl rfl)),
     (h c main_arg1 (unscoped_mem main_arg1 rfl)).trans (arg_kept m c main_arg1 (.inr (.inl rfl))),
     (h c main_arg2 (unscoped_mem main_arg2 rfl)).trans (arg_kept m c main_arg2 (.inr (.inr rfl)))⟩) (run_main m ρ)

end Cert.Kernel.Hand

end
-- ==== Proof.IdealBody.lean ====
/-
  The frame data of the row-correlation kernel: the buffers' contents when the region is entered (after the
  thirteen stretches of host operations before it), each window's block at a grid point, what the body leaves in
  the output window's buffer — the one whole-block store of the correlation column computed from the eight input
  blocks —, the body's triple, and the proof data of the pipeline. Two pairs of input windows read ONE array each
  (the feature matrix as a block of 128 rows and whole; the embedding matrix likewise): the proof data hold each of
  those arrays at a half share per window.
-/
import proofs.«140878_j88596585382792_1_alg».proof.Proof.Gen.KernelIdeal.Launch
import proofs.«140878_j88596585382792_1_alg».proof.Proof.Gen.KernelIdeal.Skeleton
import proofs.«140878_j88596585382792_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents, stretch by stretch of the host operations before the region -/

/-- Core `c`'s buffers at launch, -/
abbrev W0 (c : Dev nD) : Valuation τ sig (Elt F) := fun b => m (c, b)
/-- after stretch 1, -/
abbrev W1 (c : Dev nD) : Valuation τ sig (Elt F) := StableHlo.after hostOps0 (W0 m c)
/-- after stretch 2, -/
abbrev W2 (c : Dev nD) : Valuation τ sig (Elt F) := StableHlo.after hostOps0_1 (W1 m c)
/-- after stretch 3, -/
abbrev W3 (c : Dev nD) : Valuation τ sig (Elt F) := StableHlo.after hostOps0_2 (W2 m c)
/-- after stretch 4, -/
abbrev W4 (c : Dev nD) : Valuation τ sig (Elt F) := StableHlo.after hostOps0_3 (W3 m c)
/-- after stretch 5, -/
abbrev W5 (c : Dev nD) : Valuation τ sig (Elt F) := StableHlo.after hostOps0_4 (W4 m c)
/-- after stretch 6, -/
abbrev W6 (c : Dev nD) : Valuation τ sig (Elt F) := StableHlo.after hostOps0_5 (W5 m c)
/-- after stretch 7, -/
abbrev W7 (c : Dev nD) : Valuation τ sig (Elt F) := StableHlo.after hostOps0_6 (W6 m c)
/-- after stretch 8, -/
abbrev W8 (c : Dev nD) : Valuation τ sig (Elt F) := StableHlo.after hostOps0_7 (W7 m c)
/-- after stretch 9, -/
abbrev W9 (c : Dev nD) : Valuation τ sig (Elt F) := StableHlo.after hostOps0_8 (W8 m c)
/-- after stretch 10, -/
abbrev W10 (c : Dev nD) : Valuation τ sig (Elt F) := StableHlo.after hostOps0_9 (W9 m c)
/-- after stretch 11, -/
abbrev W11 (c : Dev nD) : Valuation τ sig (Elt F) := StableHlo.after hostOps0_10 (W10 m c)
/-- after stretch 12, -/
abbrev W12 (c : Dev nD) : Valuation τ sig (Elt F) := StableHlo.after hostOps0_11 (W11 m c)
/-- after stretch 13, -/
abbrev W13 (c : Dev nD) : Valuation τ sig (Elt F) := StableHlo.after hostOps0_12 (W12 m c)

/-- and as the region finds them. -/
abbrev V (c : Dev nD) (b : Ref sig .tc) : Buf (Elt F) ((c : Thread nD τ).loc b) := W13 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev r_S128x784 : Rect S128x784 := Rect.unit (s := S128x784) ![0, 0] S128x784.size inb_S128x784_S128x784_0_0
abbrev r_S4096x784 : Rect S4096x784 := Rect.unit (s := S4096x784) ![0, 0] S4096x784.size inb_S4096x784_S4096x784_0_0
abbrev r_S128x16 : Rect S128x16 := Rect.unit (s := S128x16) ![0, 0] S128x16.size inb_S128x16_S128x16_0_0
abbrev r_S4096x16 : Rect S4096x16 := Rect.unit (s := S4096x16) ![0, 0] S4096x16.size inb_S4096x16_S4096x16_0_0
abbrev r_S128x1 : Rect S128x1 := Rect.unit (s := S128x1) ![0, 0] S128x1.size inb_S128x1_S128x1_0_0
abbrev r_S1x4096 : Rect S1x4096 := Rect.unit (s := S1x4096) ![0, 0] S1x4096.size inb_S1x4096_S1x4096_0_0

/-- The output window's buffer after the body, from the eight input blocks: its one store, of the whole block. -/
def out8 (x0 : Vec F S128x784 .f32) (x1 : Vec F S4096x784 .f32) (x2 : Vec F S128x16 .f32) (x3 : Vec F S4096x16 .f32) (x4 : Vec F S128x1 .f32) (x5 : Vec F S1x4096 .f32) (x6 : Vec F S128x1 .f32) (x7 : Vec F S1x4096 .f32) : Vec F S128x1 .f32 :=
  View.canon [⟨r_S128x1, k0_pay1 (k0_pay2 (View.ld x0 r_S128x784) (View.ld x1 r_S4096x784) (View.ld x4 r_S128x1) (View.ld x5 r_S1x4096)) (k0_pay3 (View.ld x2 r_S128x16) (View.ld x3 r_S4096x16)) (k0_pay4 (View.ld x6 r_S128x1)) (k0_pay5 (View.ld x7 r_S1x4096))⟩]

/-- The store tiles the buffer, so it covers it. -/
theorem cover8 (p0 : Vec F S128x1 .f32) (y : S128x1.Idx) :
    ∃ pc ∈ ([⟨r_S128x1, p0⟩] : List (View.Piece (Elt F) S128x1 .f32)), y ∈ pc.1.set :=
  View.cover_of_tiled [⟨r_S128x1, p0⟩] S128x1.size (by rfl) y

/-! ## The body's triple -/

set_option maxHeartbeats 2000000 in
/-- The kernel body on whole staging memrefs, the inputs' at contents `xW` and the output's at anything, runs to the
    continuation holding the inputs' as they were and the output's at `out8` of them. -/
theorem sound_kernel (c : Dev nD) (E : Set ℕ) (i : grid0.Coords) (arg1 : Memref sig .tc .vmem S128x784 .f32) (harg1 : arg1.IsWhole) (arg2 : Memref sig .tc .vmem S4096x784 .f32) (harg2 : arg2.IsWhole) (arg3 : Memref sig .tc .vmem S128x16 .f32) (harg3 : arg3.IsWhole) (arg4 : Memref sig .tc .vmem S4096x16 .f32) (harg4 : arg4.IsWhole) (arg5 : Memref sig .tc .vmem S128x1 .f32) (harg5 : arg5.IsWhole) (arg6 : Memref sig .tc .vmem S1x4096 .f32) (harg6 : arg6.IsWhole) (arg7 : Memref sig .tc .vmem S128x1 .f32) (harg7 : arg7.IsWhole) (arg8 : Memref sig .tc .vmem S1x4096 .f32) (harg8 : arg8.IsWhole) (arg9 : Memref sig .tc .vmem S128x1 .f32) (harg9 : arg9.IsWhole)
    (x0 : Vec F S128x784 .f32) (x1 : Vec F S4096x784 .f32) (x2 : Vec F S128x16 .f32) (x3 : Vec F S4096x16 .f32) (x4 : Vec F S128x1 .f32) (x5 : Vec F S1x4096 .f32) (x6 : Vec F S128x1 .f32) (x7 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7)) -∗ K ⟨⟩))
      ⊢ wp frame (wpE (defs₀ (F := F)) Variants.none c none) E (cc0__global_loss_kernel i arg1 harg1 arg2 harg2 arg3 harg3 arg4 harg4 arg5 harg5 arg6 harg6 arg7 harg7 arg8 harg8 arg9 harg9) K := by
  simp only [cc0__global_loss_kernel_eq_skeleton]; unfold cc0__global_loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-! ## The pipeline's proof data -/

/-- The proof data on core `c`: the arrays as the region finds them; after the body at point `t` each input's buffer
    at its block and the output's at `out8` of the input blocks; the invariant the scoped rest and the generator
    register, untouched; nothing owed. The feature matrix is held at a half share by each of windows 0 and 1, the
    embedding matrix by each of windows 2 and 3, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealShare.lean ====
/-
  Two pairs of the kernel's input windows read one array each. The pipeline holds every window's array at that window's
  share, so at the region's entry each shared array, held whole, is dealt in two halves, one per window on it, and at
  the exit — the input arrays unchanged — the halves are joined again. This module states both entailments over the
  seven distinct buffers behind the nine windows, and the buffers' contents at the exit: the region's result array
  at what the write-backs made it, every other buffer as the region found it.
-/
import proofs.«140878_j88596585382792_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The seven distinct buffers behind the nine windows' arrays, in order. -/
abbrev arrRefs : List (Ref sig .tc) := [main_arg1, main_v62, main_v67, main_v68, main_v69, main_v70, main_v71]

abbrev arrList : List (DevRef τ sig) := arrRefs.map (Proc.devRef .tc)

abbrev arrSet : Finset (DevRef τ sig) := arrList.toFinset

theorem arrList_nodup : (arrList : List (DevRef τ sig)).Nodup := List.Nodup.map (Proc.devRef_injective _) (by decide)

theorem mem_arrSet (r : Ref sig .tc) (hr : r ∈ arrRefs) : Proc.devRef (τ := τ) .tc r ∈ arrSet :=
  List.mem_toFinset.mpr (List.mem_map.mpr ⟨r, hr, rfl⟩)

theorem arrSet_sub : arrSet ⊆ Pipeline.ucRefs τ sig := fun b hb => by
  obtain ⟨r, hr, rfl⟩ := List.mem_map.mp (List.mem_toFinset.mp hb)
  have hs : r.isScoped = false := (by decide : ∀ r ∈ arrRefs, r.isScoped = false) r hr
  exact Finset.mem_filter.mpr ⟨StableHlo.devRef_mem_tcRefs r, fun h => Bool.false_ne_true (hs.symm.trans h)⟩

/-- Those buffers held at a valuation, one by one. -/
theorem held_arrSet (c : Dev nD) (Wv : Valuation τ sig (Elt F)) :
    (StableHlo.held (c : Thread nD τ) arrSet Wv : sProp 𝕄)
      = iprop((((c : Thread nD τ).1, Proc.devRef .tc main_arg1) ↦{fullShare} Wv (Proc.devRef .tc main_arg1))
        ∗ (((c : Thread nD τ).1, Proc.devRef .tc main_v62) ↦{fullShare} Wv (Proc.devRef .tc main_v62))
        ∗ (((c : Thread nD τ).1, Proc.devRef .tc main_v67) ↦{fullShare} Wv (Proc.devRef .tc main_v67))
        ∗ (((c : Thread nD τ).1, Proc.devRef .tc main_v68) ↦{fullShare} Wv (Proc.devRef .tc main_v68))
        ∗ (((c : Thread nD τ).1, Proc.devRef .tc main_v69) ↦{fullShare} Wv (Proc.devRef .tc main_v69))
        ∗ (((c : Thread nD τ).1, Proc.devRef .tc main_v70) ↦{fullShare} Wv (Proc.devRef .tc main_v70))
        ∗ (((c : Thread nD τ).1, Proc.devRef .tc main_v71) ↦{fullShare} Wv (Proc.devRef .tc main_v71))) := by
  unfold StableHlo.held
  exact bigSep_eq_bigSepL arrList arrList_nodup _

/-- The windows' arrays are whole buffers: each window holds all of its array's elements, at its share. -/
theorem arrays_univ (c : Dev nD) (Fn : (w : Fin cfg0.W) → Buf (Elt F) ((cfg0.win w).arr.view.loc (c : Thread nD τ))) :
    ((dats m 0 c).arrays Fn : sProp 𝕄)
      = bigSep Finset.univ fun w : Fin cfg0.W => (((c : Thread nD τ).loc (Pipeline.arrRef spec0 w)) ↦{(dats m 0 c).share w} Fn w : sProp 𝕄) := by
  unfold Pipeline.Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl

/-- The seven buffers whole at a valuation are the nine windows' arrays at the contents the valuation gives each window's
    array, the two shared arrays each dealt in halves. -/
theorem arrays_of_held (c : Dev nD) (Wv : Valuation τ sig (Elt F)) :
    (StableHlo.held (c : Thread nD τ) arrSet Wv : sProp 𝕄)
      ⊢ (dats m 0 c).arrays fun w => Wv (Proc.devRef .tc (Pipeline.arrRef spec0 w)) := by
  rw [held_arrSet, arrays_univ, bigSep_W0]
  simp only [share0, share1, share2, share3, share4, share5, share6, share7, share8]
  iintro ⟨H1, H62, H67, H68, H69, H70, H71⟩
  ihave G1 := (pointsTo_share (PosShare.mem_left_op_right fullShare)).1 $$ H1
  icases G1 with ⟨G1l, G1r⟩
  ihave G62 := (pointsTo_share (PosShare.mem_left_op_right fullShare)).1 $$ H62
  icases G62 with ⟨G62l, G62r⟩
  isplitl [G1l]; · iexact G1l
  isplitl [G1r]; · iexact G1r
  isplitl [G62l]; · iexact G62l
  isplitl [G62r]; · iexact G62r
  isplitl [H67]; · iexact H67
  isplitl [H68]; · iexact H68
  isplitl [H69]; · iexact H69
  isplitl [H70]; · iexact H70
  iexact H71

/-- Conversely the nine windows' arrays, the windows on one array holding the same contents, are the seven buffers whole:
    the halves joined. -/
theorem held_of_arrays (c : Dev nD) (Wv : Valuation τ sig (Elt F)) :
    ((dats m 0 c).arrays fun w => Wv (Proc.devRef .tc (Pipeline.arrRef spec0 w)) : sProp 𝕄)
      ⊢ StableHlo.held (c : Thread nD τ) arrSet Wv := by
  rw [held_arrSet, arrays_univ, bigSep_W0]
  simp only [share0, share1, share2, share3, share4, share5, share6, share7, share8]
  iintro ⟨G1l, G1r, G62l, G62r, H67, H68, H69, H70, H71⟩
  isplitl [G1l G1r]
  · iapply (pointsTo_share (PosShare.mem_left_op_right fullShare)).2
    isplitl [G1l]; · iexact G1l
    iexact G1r
  isplitl [G62l G62r]
  · iapply (pointsTo_share (PosShare.mem_left_op_right fullShare)).2
    isplitl [G62l]; · iexact G62l
    iexact G62r
  isplitl [H67]; · iexact H67
  isplitl [H68]; · iexact H68
  isplitl [H69]; · iexact H69
  isplitl [H70]; · iexact H70
  iexact H71

/-- ENTRY: at the region-entry contents. -/
theorem arrays_entry (c : Dev nD) :
    (StableHlo.held (c : Thread nD τ) arrSet (W13 m c) : sProp 𝕄) ⊢ (dats m 0 c).arrays ((dats m 0 c).arrAt · 0) := by
  have h : ((dats m 0 c).arrAt · 0) = fun w => W13 m c (Proc.devRef .tc (Pipeline.arrRef spec0 w)) := funext fun w => A_eq m c w
  rw [h]
  exact arrays_of_held m c (W13 m c)

/-- The buffers' contents when the region is left: the result array at what the write-backs of all the points made
    it, every other buffer as the region found it. -/
def W14 (c : Dev nD) : Valuation τ sig (Elt F) :=
  Function.update (W13 m c) (Proc.devRef .tc main_v71) ((dats m 0 c).arrAt 8 cfg0.N)

theorem W14_v71 (c : Dev nD) : W14 m c (Proc.devRef .tc main_v71) = (dats m 0 c).arrAt 8 cfg0.N := by
  unfold W14; exact Function.update_self ..

theorem W14_of_ne (c : Dev nD) (b : DevRef τ sig) (hb : b ≠ Proc.devRef .tc main_v71) : W14 m c b = W13 m c b := by
  unfold W14; exact Function.update_of_ne hb ..

theorem W14_ref (c : Dev nD) (r : Ref sig .tc) (hr : r ≠ main_v71) : W14 m c (Proc.devRef .tc r) = W13 m c (Proc.devRef .tc r) :=
  W14_of_ne m c _ (StableHlo.devRef_ne_of_ne hr)

/-- An input window's array ends as the region found it. -/
theorem arrAt_in_exit (c : Dev nD) (w : Fin cfg0.W) (hw : (cfg0.win w).isOut = false) (hne : Pipeline.arrRef spec0 w ≠ main_v71) :
    (dats m 0 c).arrAt w cfg0.N = W14 m c (Proc.devRef .tc (Pipeline.arrRef spec0 w)) :=
  ((dats m 0 c).arrAt_in w hw _).trans ((A_eq m c w).trans (W14_ref m c (Pipeline.arrRef spec0 w) hne).symm)

/-- EXIT: the nine windows' arrays at their final contents — the inputs' unchanged, their halves joined — are the seven
    buffers whole at the exit contents. -/
theorem arrays_exit (c : Dev nD) :
    ((dats m 0 c).arrays ((dats m 0 c).arrAt · cfg0.N) : sProp 𝕄) ⊢ StableHlo.held (c : Thread nD τ) arrSet (W14 m c) := by
  have hin : ∀ w : Fin 9, w ≠ 8 → (win0 w).isOut = false ∧ Pipeline.arrRef spec0 w ≠ main_v71 := by decide
  have h : ((dats m 0 c).arrAt · cfg0.N) = fun w => W14 m c (Proc.devRef .tc (Pipeline.arrRef spec0 w)) := funext fun w => by
    by_cases hw : w = 8
    · subst hw; exact (W14_v71 m c).symm
    · exact arrAt_in_exit m c w (hin w hw).1 (hin w hw).2
  rw [h]
  exact held_of_arrays m c (W14 m c)

/-- Off the seven buffers the exit contents are the entry contents. -/
theorem held_rest_exit (c : Dev nD) :
    (StableHlo.held (c : Thread nD τ) (Pipeline.ucRefs τ sig \ arrSet) (W13 m c) : sProp 𝕄)
      = StableHlo.held (c : Thread nD τ) (Pipeline.ucRefs τ sig \ arrSet) (W14 m c) :=
  StableHlo.held_congr _ fun b hb => (W14_of_ne m c b fun h => (Finset.mem_sdiff.mp hb).2 (h ▸ mem_arrSet main_v71 (by decide))).symm

end Cert.KernelIdeal.Hand

end
-- ==== Proof.IdealRun.lean ====
/-
  The run of @main: thirteen stretches of host operations, the kernel region, one more stretch. Between two of
  them the core holds its unscoped buffers whole at a valuation — each stretch advances it by its operations, the
  region by the write-backs into its result array — beside what it owes (nothing) and its generator register.
  The region is entered by dealing the seven buffers behind its windows to the pipeline (the two shared arrays in
  halves) and left by joining them again; everything else bypasses it. Conclusion: every weakly fair execution
  terminates, and every unscoped buffer ends at the last valuation.
-/
import proofs.«140878_j88596585382792_1_alg».proof.Proof.IdealShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core's `owes` (nothing) and its generator register. -/
abbrev R (c : Dev nD) : sProp 𝕄 :=
  iprop((∃ W, owes (c : Thread nD τ) (0 : CellTallies nD τ sig Unit) W) ∗ ∃ r, prngReg c r)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over the unscoped buffers at a valuation. -/
def hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) Wv R

/-- The buffers' contents at the end: the last stretch run from the region's exit. -/
abbrev W15 (c : Dev nD) : Valuation τ sig (Elt F) := StableHlo.after hostOps1 (W14 m c)

-- an entailment between thread states stated over `cfgs p` at the pinned configuration unifies only when
-- unification may unfold plain definitions in a metavariable's type
set_option backward.isDefEq.respectTransparency.types false in
/-- THE REGION: the decided layout, no semaphore of the kernel's own, the body obligation; entered from the buffers at
    the thirteenth valuation, left with them at the exit valuation. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := StableHlo.held (c : Thread nD τ) (Pipeline.ucRefs τ sig \ arrSet) (W13 m c)
  hentry c := by
    rw [StableHlo.held_sub_split (c : Thread nD τ) arrSet_sub (W13 m c)]
    iintro ⟨⟨⟨Ha, Hz⟩, HO, Hp⟩, -, -⟩
    ihave Ha' := (arrays_entry m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [StableHlo.held_sub_split (c : Thread nD τ) arrSet_sub (W14 m c), ← held_rest_exit]
    iintro ⟨Ha, HO, Hp, Hz⟩
    ihave Ha' := (arrays_exit m c) $$ Ha
    imodintro
    isplitl [Ha' Hz]
    · isplitl [Ha']; · iexact Ha'
      iexact Hz
    isplitl [HO]
    · unfold Pipeline.Dat.owesAt Pipeline.owesWithin
      icases HO with ⟨%W, -, HO⟩; iexists W; iexact HO
    iexact Hp

/-- @main as the list of its fifteen segments. -/
abbrev segs : List (Pipeline.Seg (pcfgs (F := F)) adm (dats m) () defs₀ 𝒱₀ L lv) :=
  [.host (hseg hostOps0 hostOps0_sub hostOps0_fresh (W0 m)),
   .host (hseg hostOps0_1 hostOps0_1_sub hostOps0_1_fresh (W1 m)),
   .host (hseg hostOps0_2 hostOps0_2_sub hostOps0_2_fresh (W2 m)),
   .host (hseg hostOps0_3 hostOps0_3_sub hostOps0_3_fresh (W3 m)),
   .host (hseg hostOps0_4 hostOps0_4_sub hostOps0_4_fresh (W4 m)),
   .host (hseg hostOps0_5 hostOps0_5_sub hostOps0_5_fresh (W5 m)),
   .host (hseg hostOps0_6 hostOps0_6_sub hostOps0_6_fresh (W6 m)),
   .host (hseg hostOps0_7 hostOps0_7_sub hostOps0_7_fresh (W7 m)),
   .host (hseg hostOps0_8 hostOps0_8_sub hostOps0_8_fresh (W8 m)),
   .host (hseg hostOps0_9 hostOps0_9_sub hostOps0_9_fresh (W9 m)),
   .host (hseg hostOps0_10 hostOps0_10_sub hostOps0_10_fresh (W10 m)),
   .host (hseg hostOps0_11 hostOps0_11_sub hostOps0_11_fresh (W11 m)),
   .host (hseg hostOps0_12 hostOps0_12_sub hostOps0_12_fresh (W12 m)),
   .region (reg0 m),
   .host (hseg hostOps1 hostOps1_sub hostOps1_fresh (W14 m))]

/-- The physical post: every unscoped buffer at the last valuation. -/
def QC : PUnit × MemSt nD τ sig (Elt F) → Prop := fun r =>
  ∀ c : Dev nD, ∀ b ∈ (Finset.univ.filter fun b : Ref sig .tc => ¬ b.isScoped), r.2.mem ((c : Thread nD τ).loc b) = W15 m c b

set_option backward.isDefEq.respectTransparency.types false in
set_option maxHeartbeats 1000000 in
/-- At the compiled mesh, for any values, from any memory with zero counters: every weakly fair execution of @main on the
    TensorCores terminates, nothing faulting, and every final state has every unscoped buffer at the last valuation. -/
theorem run_main : θ_run defs (onTc (τ := τ) (main (F := F))) (s₀ m ρ) (QC m) :=
  Pipeline.θ_run_regions_kit (pcfgs (F := F)) adm (dats m) () cellOf_inj emb₁ defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W15 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m c) ∗ R c) ⊢ _
      iintro ⟨Hh, HO, Hp⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      iexists _; iexact Hp)
    (QY := fun c s => ∀ b ∈ (Finset.univ.filter fun b : Ref sig .tc => ¬ b.isScoped), s.mem ((c : Thread nD τ).loc b) = W15 m c b)
    (hfin := fun c s' => by
      rw [← Pipeline.unscopedBufs_held c (W15 m c)]
      unfold unscopedBufs
      iintro ⟨⟨HU, -⟩, HSI⟩
      imodintro
      iapply (pointsTo_read_all (Finset.univ.filter fun b : Ref sig .tc => ¬ b.isScoped) (fun b => (c : Thread nD τ).loc b) (fun b => W15 m c b) s')
      isplitl [HU] <;> iassumption)
    (hQ := fun _ h => h)

end Cert.KernelIdeal.Hand

end
-- ==== Proof.IdealFrame.lean ====
/-
  The frame: no host operation and no write-back touches an argument array, so each ends as it was launched.
-/
import proofs.«140878_j88596585382792_1_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Closes `StableHlo.after ops V b = V b` for a literal stretch `ops` none of whose operations writes `b`. -/
local macro "keeps" : tactic =>
  `(tactic| (refine StableHlo.after_of_forall_not_mem _ _ (List.forall_iff_forall_mem.mp ?_)
             simp only [List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- An argument's reference. -/
abbrev IsArg (r : Ref sig .tc) : Prop := r = main_arg0 ∨ r = main_arg1 ∨ r = main_arg2

theorem keep_hostOps0 (Wv : Valuation τ sig (Elt F)) (r : Ref sig .tc) (hr : IsArg r) :
    StableHlo.after hostOps0 Wv (Proc.devRef .tc r) = Wv (Proc.devRef .tc r) := by
  rcases hr with rfl | rfl | rfl <;> keeps
theorem keep_hostOps0_1 (Wv : Valuation τ sig (Elt F)) (r : Ref sig .tc) (hr : IsArg r) :
    StableHlo.after hostOps0_1 Wv (Proc.devRef .tc r) = Wv (Proc.devRef .tc r) := by
  rcases hr with rfl | rfl | rfl <;> keeps
theorem keep_hostOps0_2 (Wv : Valuation τ sig (Elt F)) (r : Ref sig .tc) (hr : IsArg r) :
    StableHlo.after hostOps0_2 Wv (Proc.devRef .tc r) = Wv (Proc.devRef .tc r) := by
  rcases hr with rfl | rfl | rfl <;> keeps
theorem keep_hostOps0_3 (Wv : Valuation τ sig (Elt F)) (r : Ref sig .tc) (hr : IsArg r) :
    StableHlo.after hostOps0_3 Wv (Proc.devRef .tc r) = Wv (Proc.devRef .tc r) := by
  rcases hr with rfl | rfl | rfl <;> keeps
theorem keep_hostOps0_4 (Wv : Valuation τ sig (Elt F)) (r : Ref sig .tc) (hr : IsArg r) :
    StableHlo.after hostOps0_4 Wv (Proc.devRef .tc r) = Wv (Proc.devRef .tc r) := by
  rcases hr with rfl | rfl | rfl <;> keeps
theorem keep_hostOps0_5 (Wv : Valuation τ sig (Elt F)) (r : Ref sig .tc) (hr : IsArg r) :
    StableHlo.after hostOps0_5 Wv (Proc.devRef .tc r) = Wv (Proc.devRef .tc r) := by
  rcases hr with rfl | rfl | rfl <;> keeps
theorem keep_hostOps0_6 (Wv : Valuation τ sig (Elt F)) (r : Ref sig .tc) (hr : IsArg r) :
    StableHlo.after hostOps0_6 Wv (Proc.devRef .tc r) = Wv (Proc.devRef .tc r) := by
  rcases hr with rfl | rfl | rfl <;> keeps
theorem keep_hostOps0_7 (Wv : Valuation τ sig (Elt F)) (r : Ref sig .tc) (hr : IsArg r) :
    StableHlo.after hostOps0_7 Wv (Proc.devRef .tc r) = Wv (Proc.devRef .tc r) := by
  rcases hr with rfl | rfl | rfl <;> keeps
theorem keep_hostOps0_8 (Wv : Valuation τ sig (Elt F)) (r : Ref sig .tc) (hr : IsArg r) :
    StableHlo.after hostOps0_8 Wv (Proc.devRef .tc r) = Wv (Proc.devRef .tc r) := by
  rcases hr with rfl | rfl | rfl <;> keeps
theorem keep_hostOps0_9 (Wv : Valuation τ sig (Elt F)) (r : Ref sig .tc) (hr : IsArg r) :
    StableHlo.after hostOps0_9 Wv (Proc.devRef .tc r) = Wv (Proc.devRef .tc r) := by
  rcases hr with rfl | rfl | rfl <;> keeps
theorem keep_hostOps0_10 (Wv : Valuation τ sig (Elt F)) (r : Ref sig .tc) (hr : IsArg r) :
    StableHlo.after hostOps0_10 Wv (Proc.devRef .tc r) = Wv (Proc.devRef .tc r) := by
  rcases hr with rfl | rfl | rfl <;> keeps
theorem keep_hostOps0_11 (Wv : Valuation τ sig (Elt F)) (r : Ref sig .tc) (hr : IsArg r) :
    StableHlo.after hostOps0_11 Wv (Proc.devRef .tc r) = Wv (Proc.devRef .tc r) := by
  rcases hr with rfl | rfl | rfl <;> keeps
theorem keep_hostOps0_12 (Wv : Valuation τ sig (Elt F)) (r : Ref sig .tc) (hr : IsArg r) :
    StableHlo.after hostOps0_12 Wv (Proc.devRef .tc r) = Wv (Proc.devRef .tc r) := by
  rcases hr with rfl | rfl | rfl <;> keeps
theorem keep_hostOps1 (Wv : Valuation τ sig (Elt F)) (r : Ref sig .tc) (hr : IsArg r) :
    StableHlo.after hostOps1 Wv (Proc.devRef .tc r) = Wv (Proc.devRef .tc r) := by
  rcases hr with rfl | rfl | rfl <;> keeps

theorem arg_ne_v71 (r : Ref sig .tc) (hr : IsArg r) : r ≠ main_v71 := by
  rcases hr with rfl | rfl | rfl <;> decide

/-- An argument's buffer holds at the end what it held at launch. -/
theorem arg_kept (c : Dev nD) (r : Ref sig .tc) (hr : IsArg r) : W15 m c (Proc.devRef .tc r) = m ((c : Thread nD τ).loc r) :=
  (keep_hostOps1 (W14 m c) r hr).trans <| (W14_ref m c r (arg_ne_v71 r hr)).trans <|
  (keep_hostOps0_12 (W12 m c) r hr).trans <|
  (keep_hostOps0_11 (W11 m c) r hr).trans <|
  (keep_hostOps0_10 (W10 m c) r hr).trans <|
  (keep_hostOps0_9 (W9 m c) r hr).trans <|
  (keep_hostOps0_8 (W8 m c) r hr).trans <|
  (keep_hostOps0_7 (W7 m c) r hr).trans <|
  (keep_hostOps0_6 (W6 m c) r hr).trans <|
  (keep_hostOps0_5 (W5 m c) r hr).trans <|
  (keep_hostOps0_4 (W4 m c) r hr).trans <|
  (keep_hostOps0_3 (W3 m c) r hr).trans <|
  (keep_hostOps0_2 (W2 m c) r hr).trans <|
  (keep_hostOps0_1 (W1 m c) r hr).trans <|
  (keep_hostOps0 (W0 m c) r hr).trans <|
  rfl

/-- An argument's buffer holds when the region is entered what it held at launch. -/
theorem arg_entry (c : Dev nD) (r : Ref sig .tc) (hr : IsArg r) : W13 m c (Proc.devRef .tc r) = m ((c : Thread nD τ).loc r) :=
  (keep_hostOps0_12 (W12 m c) r hr).trans <|
  (keep_hostOps0_11 (W11 m c) r hr).trans <|
  (keep_hostOps0_10 (W10 m c) r hr).trans <|
  (keep_hostOps0_9 (W9 m c) r hr).trans <|
  (keep_hostOps0_8 (W8 m c) r hr).trans <|
  (keep_hostOps0_7 (W7 m c) r hr).trans <|
  (keep_hostOps0_6 (W6 m c) r hr).trans <|
  (keep_hostOps0_5 (W5 m c) r hr).trans <|
  (keep_hostOps0_4 (W4 m c) r hr).trans <|
  (keep_hostOps0_3 (W3 m c) r hr).trans <|
  (keep_hostOps0_2 (W2 m c) r hr).trans <|
  (keep_hostOps0_1 (W1 m c) r hr).trans <|
  (keep_hostOps0 (W0 m c) r hr).trans <|
  rfl

theorem unscoped_mem (r : Ref sig .tc) (hr : r.isScoped = false) : r ∈ (Finset.univ.filter fun b : Ref sig .tc => ¬ b.isScoped) :=
  Finset.mem_filter.mpr ⟨Finset.mem_univ _, fun h => Bool.false_ne_true (hr.symm.trans h)⟩

/-- THE FRAME: every weakly fair execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0 (unscoped_mem main_arg0 rfl)).trans (arg_kept m c main_arg0 (.inl rfl)),
     (h c main_arg1 (unscoped_mem main_arg1 rfl)).trans (arg_kept m c main_arg1 (.inr (.inl rfl))),
     (h c main_arg2 (unscoped_mem main_arg2 rfl)).trans (arg_kept m c main_arg2 (.inr (.inr rfl)))⟩) (run_main m ρ)

end Cert.KernelIdeal.Hand

end
-- ==== Proof.IdealBlocks.lean ====
/-
  Where each window's block sits in its array. At grid point t the kernel works on rows 128·t … 128·t + 127: the
  row-blocked windows (the feature block, the embedding block, the two square-sum columns and the result column)
  hold those rows, the whole-array windows hold everything at every point. This module reads each input block at an
  index as the array at the global index, and shows that the result column's 32 blocks cover its 4096 rows.
-/
import proofs.«140878_j88596585382792_1_alg».proof.Proof.IdealBody
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-- The printed index maps, decided over the grid: a row-blocked window's block index is (t, 0), a whole-array
    window's (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 32 := t.isLt

/-- Row `p` of block `t` is row `128·t + p` of the array. -/
def grow (t : Fin cfg0.N) (p : Fin 128) : Fin 4096 := ⟨128 * t.val + p.val, by have := t_lt t; have := p.isLt; omega⟩

/-- The feature block (window 0) at (p, k) is the feature matrix at (128·t + p, k). -/
theorem blk0 (c : Dev nD) (t : Fin cfg0.N) (p : Fin 128) (k : Fin 784) :
    iblk m c 0 t (ix2 p k) = V m c main_arg1 (ix2 (grow t p) k) := by
  obtain ⟨e0, e1, -⟩ := idx_facts t
  show V m c main_arg1 (((cfg0.win 0).blk t).view.emb (ix2 p k)) = V m c main_arg1 (ix2 (grow t p) k)
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 784 + 1 * k.val = k.val; omega

/-- The whole feature matrix (window 1) at (j, k). -/
theorem blk1 (c : Dev nD) (t : Fin cfg0.N) (j : Fin 4096) (k : Fin 784) :
    iblk m c 1 t (ix2 j k) = V m c main_arg1 (ix2 j k) := by
  obtain ⟨-, -, e0, e1, -⟩ := idx_facts t
  show V m c main_arg1 (((cfg0.win 1).blk t).view.emb (ix2 j k)) = V m c main_arg1 (ix2 j k)
  refine congrArg _ (funext fun a => Fin.ext ?_)
  match a with
  | ⟨0, _⟩ => show win0_1.index t (0 : Fin 2) * 4096 + 1 * j.val = j.val; omega
  | ⟨1, _⟩ => show win0_1.index t (1 : Fin 2) * 784 + 1 * k.val = k.val; omega

/-- The embedding block (window 2) at (p, k). -/
theorem blk2 (c : Dev nD) (t : Fin cfg0.N) (p : Fin 128) (k : Fin 16) :
    iblk m c 2 t (ix2 p k) = V m c main_v62 (ix2 (grow t p) k) := by
  obtain ⟨-, -, -, -, e0, e1, -⟩ := idx_facts t
  show V m c main_v62 (((cfg0.win 2).blk t).view.emb (ix2 p k)) = V m c main_v62 (ix2 (grow t p) k)
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 16 + 1 * k.val = k.val; omega

/-- The whole embedding matrix (window 3) at (j, k). -/
theorem blk3 (c : Dev nD) (t : Fin cfg0.N) (j : Fin 4096) (k : Fin 16) :
    iblk m c 3 t (ix2 j k) = V m c main_v62 (ix2 j k) := by
  obtain ⟨-, -, -, -, -, -, e0, e1, -⟩ := idx_facts t
  show V m c main_v62 (((cfg0.win 3).blk t).view.emb (ix2 j k)) = V m c main_v62 (ix2 j k)
  refine congrArg _ (funext fun a => Fin.ext ?_)
  match a with
  | ⟨0, _⟩ => show win0_3.index t (0 : Fin 2) * 4096 + 1 * j.val = j.val; omega
  | ⟨1, _⟩ => show win0_3.index t (1 : Fin 2) * 16 + 1 * k.val = k.val; omega

/-- The feature square-sums' column block (window 4) at (p, 0). -/
theorem blk4 (c : Dev nD) (t : Fin cfg0.N) (p : Fin 128) :
    iblk m c 4 t (ix2 p (0 : Fin 1)) = V m c main_v67 (ix2 (grow t p) (0 : Fin 1)) := by
  obtain ⟨-, -, -, -, -, -, -, -, e0, e1, -⟩ := idx_facts t
  show V m c main_v67 (((cfg0.win 4).blk t).view.emb (ix2 p (0 : Fin 1))) = V m c main_v67 (ix2 (grow t p) (0 : Fin 1))
  refine congrArg _ (funext fun a => Fin.ext ?_)
  match a with
  | ⟨0, _⟩ => show win0_4.index t (0 : Fin 2) * 128 + 1 * p.val = 128 * t.val + p.val; omega
  | ⟨1, _⟩ => show win0_4.index t (1 : Fin 2) * 1 + 1 * 0 = 0; omega

/-- The feature square-sums' row (window 5) at (0, j). -/
theorem blk5 (c : Dev nD) (t : Fin cfg0.N) (j : Fin 4096) :
    iblk m c 5 t (ix2 (0 : Fin 1) j) = V m c main_v68 (ix2 (0 : Fin 1) j) := by
  obtain ⟨-, -, -, -, -, -, -, -, -, -, e0, e1, -⟩ := idx_facts t
  show V m c main_v68 (((cfg0.win 5).blk t).view.emb (ix2 (0 : Fin 1) j)) = V m c main_v68 (ix2 (0 : Fin 1) j)
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-- The embedding square-sums' column block (window 6) at (p, 0). -/
theorem blk6 (c : Dev nD) (t : Fin cfg0.N) (p : Fin 128) :
    iblk m c 6 t (ix2 p (0 : Fin 1)) = V m c main_v69 (ix2 (grow t p) (0 : Fin 1)) := by
  obtain ⟨-, -, -, -, -, -, -, -, -, -, -, -, e0, e1, -⟩ := idx_facts t
  show V m c main_v69 (((cfg0.win 6).blk t).view.emb (ix2 p (0 : Fin 1))) = V m c main_v69 (ix2 (grow t p) (0 : Fin 1))
  refine congrArg _ (funext fun a => Fin.ext ?_)
  match a with
  | ⟨0, _⟩ => show win0_6.index t (0 : Fin 2) * 128 + 1 * p.val = 128 * t.val + p.val; omega
  | ⟨1, _⟩ => show win0_6.index t (1 : Fin 2) * 1 + 1 * 0 = 0; omega

/-- The embedding square-sums' row (window 7) at (0, j). -/
theorem blk7 (c : Dev nD) (t : Fin cfg0.N) (j : Fin 4096) :
    iblk m c 7 t (ix2 (0 : Fin 1) j) = V m c main_v70 (ix2 (0 : Fin 1) j) := by
  obtain ⟨-, -, -, -, -, -, -, -, -, -, -, -, -, -, e0, e1, -⟩ := idx_facts t
  show V m c main_v70 (((cfg0.win 7).blk t).view.emb (ix2 (0 : Fin 1) j)) = V m c main_v70 (ix2 (0 : Fin 1) j)
  refine congrArg _ (funext fun a => Fin.ext ?_)
  match a with
  | ⟨0, _⟩ => show win0_7.index t (0 : Fin 2) * 1 + 1 * 0 = 0; omega
  | ⟨1, _⟩ => show win0_7.index t (1 : Fin 2) * 4096 + 1 * j.val = j.val; omega

/-- The result column's block `t` at (p, 0) is the column at (128·t + p, 0). -/
theorem emb8 (t : Fin cfg0.N) (p : Fin 128) :
    ((cfg0.win 8).blk t).view.emb (ix2 p (0 : Fin 1)) = ix2 (grow t p) (0 : Fin 1) := by
  obtain ⟨-, -, -, -, -, -, -, -, -, -, -, -, -, -, -, -, e0, e1⟩ := idx_facts t
  refine funext fun a => Fin.ext ?_
  match a with
  | ⟨0, _⟩ => show win0_8.index t (0 : Fin 2) * 128 + 1 * p.val = 128 * t.val + p.val; omega
  | ⟨1, _⟩ => show win0_8.index t (1 : Fin 2) * 1 + 1 * 0 = 0; omega

/-- An index of the result column is in point `t`'s block iff each coordinate is in the block's range on its axis. -/
theorem mem_blk8 (t : Fin cfg0.N) (i : S4096x1.Idx) :
    i ∈ ((cfg0.win 8).blk t).view.set ↔ ∀ a : Fin 2, win0_8.index t a * S128x1.size a ≤ (i a).val ∧ (i a).val < win0_8.index t a * S128x1.size a + S128x1.size a := by
  show i ∈ ((View.whole main_v71).slice (win0_8.rect t)).set ↔ _
  rw [View.set_slice_whole, Rect.mem_set_unit]
  exact Iff.rfl

/-- Every block of 128 rows is some point's. -/
theorem idx_onto8 : ∀ q0 : Fin 32, ∃ t : Fin cfg0.N, win0_8.index t = ![q0.val, 0] :=
  (by decide +kernel : ∀ q0 : Fin 32, ∃ t : Fin grid0.N, win0_8.index t = ![q0.val, 0])

/-- The 32 blocks cover the result column: row `r` is in the block of point `r / 128`. -/
theorem cover_out (i : S4096x1.Idx) : ∃ t : Fin cfg0.N, (cfg0.win 8).flush t = true ∧ i ∈ ((cfg0.win 8).blk t).view.set := by
  have hi0 : (i 0).val < 4096 := (i 0).isLt
  have hi1 : (i 1).val < 1 := (i 1).isLt
  obtain ⟨t, ht⟩ := idx_onto8 ⟨(i 0).val / 128, by omega⟩
  have q0 : win0_8.index t (0 : Fin 2) = (i 0).val / 128 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 1 ≤ (i 1).val ∧ (i 1).val < win0_8.index t (1 : Fin 2) * 1 + 1; omega

end Cert.KernelIdeal.Hand

end
-- ==== Proof.CorrSpec.lean ====
import Idealize.ShloMosaic.PureOps.Ideal
import Idealize.ShloMosaic.Lib.ValueIdx

/-!
# The correlation loss, as a function on extended reals

Given a data matrix X (4096 rows of 784 entries) and an embedding matrix E (4096 rows of 16 entries), each row r has a
vector of distances to every row j in the data space and one in the embedding space. The squared distance is
|x_r|² + |x_j|² − 2·⟨x_r, x_j⟩, clamped below at zero; the distance is its square root where it is positive and zero
elsewhere (the square root is taken of 1 in place of a non-positive entry, then discarded). The correlation of row r is
the Pearson correlation of its two distance vectors: each is centred by its mean over the 4096 columns, and the sum of
the products of the centred vectors is divided by the product of the square roots of their sums of squares. The loss
combines a cross-entropy term with minus the mean of the 4096 row correlations, with fixed weights.

The row square-sums |x_j|² are parameters here, so that the same function describes a computation that receives them
already formed. Every literal is kept as the value of its 32-bit word.
-/

noncomputable section

open scoped BigOperators

namespace Cert.Corr

open Idealize.ShloMosaic

/-- A distance from the sum s of the two square-sums and the inner product g: with d = max (s − 2·g) 0, the square
    root of d where d is positive (of 1 elsewhere, then dropped), and 0 where d is not positive. -/
def dis (s g : EReal) : EReal :=
  Scalar.select
    (Ideal.cmp .ogt (max (s - Ideal.ofBits .f32 0x40000000#32 * g) (Ideal.ofBits .f32 0x00000000#32))
      (Ideal.ofBits .f32 0x00000000#32))
    (Ideal.sqrt (Scalar.select
      (Ideal.cmp .ogt (max (s - Ideal.ofBits .f32 0x40000000#32 * g) (Ideal.ofBits .f32 0x00000000#32))
        (Ideal.ofBits .f32 0x00000000#32))
      (max (s - Ideal.ofBits .f32 0x40000000#32 * g) (Ideal.ofBits .f32 0x00000000#32))
      (Ideal.ofBits .f32 0x3F800000#32)))
    (Ideal.ofBits .f32 0x00000000#32)

/-- A vector of 4096 entries minus its mean: the mean is (0 + the sum of the entries) / 4096. -/
def centered (v : Fin 4096 → EReal) (j : Fin 4096) : EReal :=
  v j - Ideal.div (Ideal.ofBits .f32 0x00000000#32 + ∑ j' : Fin 4096, v j') (Ideal.ofBits .f32 0x45800000#32)

/-- The normalised inner product of two vectors of 4096 entries: (0 + Σ h·l) / (√(0 + Σ h·h) · √(0 + Σ l·l)). -/
def pearson (h l : Fin 4096 → EReal) : EReal :=
  Ideal.div (Ideal.ofBits .f32 0x00000000#32 + ∑ j : Fin 4096, h j * l j)
    (Ideal.sqrt (Ideal.ofBits .f32 0x00000000#32 + ∑ j : Fin 4096, h j * h j)
      * Ideal.sqrt (Ideal.ofBits .f32 0x00000000#32 + ∑ j : Fin 4096, l j * l j))

/-- The correlation of one row: its data-space entries xr against every row of X, its embedding entries er against
    every row of E; sx, se are the row's own square-sums and SX, SE those of every row. -/
def corrRow (xr : Fin 784 → EReal) (X : Fin 4096 → Fin 784 → EReal) (er : Fin 16 → EReal)
    (E : Fin 4096 → Fin 16 → EReal) (sx : EReal) (SX : Fin 4096 → EReal) (se : EReal) (SE : Fin 4096 → EReal) : EReal :=
  pearson (centered fun j => dis (sx + SX j) (∑ k : Fin 784, xr k * X j k))
    (centered fun j => dis (se + SE j) (∑ k : Fin 16, er k * E j k))

/-- The loss from the cross-entropy mean ce and the 4096 row correlations:
    0.9296875 · ce + 0.0703125 · (−((0 + Σ corr) / 4096)). -/
def loss (ce : EReal) (corr : Fin 4096 → EReal) : EReal :=
  Ideal.ofBits .f32 0x3F6E0000#32 * ce
    + Ideal.ofBits .f32 0x3D900000#32
      * (-(Ideal.div (Ideal.ofBits .f32 0x00000000#32 + ∑ r : Fin 4096, corr r) (Ideal.ofBits .f32 0x45800000#32)))

/-- A sum over the rank-1 index set of 4096 entries is the sum over its coordinate. -/
theorem sum_idx1 {M : Type*} [AddCommMonoid M] {n : Nat} (f : (⟨1, ![n]⟩ : Shape).Idx → M) :
    ∑ i, f i = ∑ a : Fin n, f (ValueIdx.ix1 a) := by
  refine (Equiv.sum_comp (⟨fun a => ValueIdx.ix1 a, fun i => i 0, fun _ => rfl,
    fun i => (ValueIdx.eq_ix1 i).symm⟩ : Fin n ≃ (⟨1, ![n]⟩ : Shape).Idx) f).symm

end Cert.Corr

end
-- ==== Proof.CorrLayout.lean ====
import Idealize.ShloMosaic.Lib.ValueLayout

/-!
# A column kept as a unit axis, read at an index

A row reduction that keeps its axis produces an [a, 1] column: a vector of a entries cast to [a, 1] reads entry i at
(i, 0), and an [a, 1] column broadcast to [a, b] reads, at (p, c), the column's entry p. Both are stated for indices
written by coordinates.
-/

namespace Cert.Corr

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Corr
-- ==== Proof.CorrKernelOps.lean ====
import proofs.«140878_j88596585382792_1_alg».proof.Proof.Gen.KernelIdeal.Skeleton
import proofs.«140878_j88596585382792_1_alg».proof.Proof.CorrSpec
import proofs.«140878_j88596585382792_1_alg».proof.Proof.CorrLayout
import Idealize.ShloMosaic.PureOps.Ideal.Laws

/-!
# The pieces of one block's computation, read at an index

A block holds 128 rows. Three pieces of its computation are not entrywise: the inner products of the block's rows with
all 4096 rows (a contraction over the 784 data columns, or the 16 embedding columns, of BOTH operands' second axis),
the sum of a [128, 4096] matrix along its rows kept as a [128, 1] column, and that column spread back over the 4096
columns. Each is read here at an index written by coordinates: entry (p, j) of the inner-product matrix is
Σ_k x_p,k · y_j,k; entry (p, 0) of the row sum is Σ_j w_p,j; a matrix minus its row mean reads, at (p, j), the centred
row p at j. The distance matrix is entrywise in the sum of square-sums and the inner product.
-/

noncomputable section

open scoped BigOperators

namespace Cert.Corr

open Idealize.ShloMosaic Idealize.ShloMosaic.ValueIdx Cert.KernelIdeal Cert.KernelIdeal.Gen

/-! ## The specification's sums without their zero initial value -/

theorem centered_eq (v : Fin 4096 → EReal) (j : Fin 4096) :
    centered v j = v j - Ideal.div (∑ j' : Fin 4096, v j') (Ideal.ofBits .f32 0x45800000#32) := by
  unfold centered; rw [Ideal.ofBits_zero_f32, zero_add]

theorem pearson_eq (h l : Fin 4096 → EReal) :
    pearson h l = Ideal.div (∑ j : Fin 4096, h j * l j)
      (Ideal.sqrt (∑ j : Fin 4096, h j * h j) * Ideal.sqrt (∑ j : Fin 4096, l j * l j)) := by
  unfold pearson; rw [Ideal.ofBits_zero_f32, zero_add, zero_add, zero_add]

/-! ## The inner products of a block's rows with every row -/

theorem lhsX_0 (i : S128x4096.Idx) (q : dot_S128x784_S4096x784_S128x4096_1_1_0_0_n_n.contr.Idx) :
    (dot_S128x784_S4096x784_S128x4096_1_1_0_0_n_n.lhsIdx i q 0).val = (i 0).val := by
  unfold DotDims.lhsIdx
  rw [dif_neg (show ¬(0 : Fin S128x784.rank) ∈ dot_S128x784_S4096x784_S128x4096_1_1_0_0_n_n.lhsBatch by decide), dif_pos (show (0 : Fin S128x784.rank) ∈ dot_S128x784_S4096x784_S128x4096_1_1_0_0_n_n.lhsNonContracting by decide)]
  rfl
theorem lhsX_1 (i : S128x4096.Idx) (q : dot_S128x784_S4096x784_S128x4096_1_1_0_0_n_n.contr.Idx) :
    (dot_S128x784_S4096x784_S128x4096_1_1_0_0_n_n.lhsIdx i q 1).val = (q ⟨0, by decide⟩).val :=
  dot_S128x784_S4096x784_S128x4096_1_1_0_0_n_n.lhsIdx_val_of_single rfl i q
theorem rhsX_0 (i : S128x4096.Idx) (q : dot_S128x784_S4096x784_S128x4096_1_1_0_0_n_n.contr.Idx) :
    (dot_S128x784_S4096x784_S128x4096_1_1_0_0_n_n.rhsIdx i q 0).val = (i 1).val := by
  unfold DotDims.rhsIdx
  rw [dif_neg (show ¬(0 : Fin S4096x784.rank) ∈ dot_S128x784_S4096x784_S128x4096_1_1_0_0_n_n.rhsBatch by decide), dif_pos (show (0 : Fin S4096x784.rank) ∈ dot_S128x784_S4096x784_S128x4096_1_1_0_0_n_n.rhsNonContracting by decide)]
  rfl
theorem rhsX_1 (i : S128x4096.Idx) (q : dot_S128x784_S4096x784_S128x4096_1_1_0_0_n_n.contr.Idx) :
    (dot_S128x784_S4096x784_S128x4096_1_1_0_0_n_n.rhsIdx i q 1).val = (q ⟨0, by decide⟩).val :=
  dot_S128x784_S4096x784_S128x4096_1_1_0_0_n_n.rhsIdx_val_of_single rfl i q

/-- Entry (p, j) of the data-space inner products: the sum over the 784 columns of x0 (p, k) · x1 (j, k). -/
theorem gramX_apply (x0 : FVec Ideal S128x784 .f32) (x1 : FVec Ideal S4096x784 .f32) (p : Fin 128) (j : Fin 4096) :
    matmul dot_S128x784_S4096x784_S128x4096_1_1_0_0_n_n (some .fp32) x0 x1 (constant S128x4096 .f32 0x00000000#32) (ix2 p j)
      = ∑ k : Fin 784, x0 (ix2 p k) * x1 (ix2 j k) := by
  simp only [matmul]
  rw [Ideal.matmul_constant_zero_apply, ← Equiv.sum_comp (ValueIdx.contrEquiv1 dot_S128x784_S4096x784_S128x4096_1_1_0_0_n_n 784 rfl rfl).symm]
  refine Finset.sum_congr rfl fun k _ => ?_
  have hk := ValueIdx.contrEquiv1_symm_val dot_S128x784_S4096x784_S128x4096_1_1_0_0_n_n 784 rfl rfl k
  have el : dot_S128x784_S4096x784_S128x4096_1_1_0_0_n_n.lhsIdx (ix2 p j) ((ValueIdx.contrEquiv1 dot_S128x784_S4096x784_S128x4096_1_1_0_0_n_n 784 rfl rfl).symm k) = ix2 p k := funext fun a => Fin.ext (by
    match a with
    | ⟨0, _⟩ => exact lhsX_0 _ _
    | ⟨1, _⟩ => exact (lhsX_1 _ _).trans hk)
  have er : dot_S128x784_S4096x784_S128x4096_1_1_0_0_n_n.rhsIdx (ix2 p j) ((ValueIdx.contrEquiv1 dot_S128x784_S4096x784_S128x4096_1_1_0_0_n_n 784 rfl rfl).symm k) = ix2 j k := funext fun a => Fin.ext (by
    match a with
    | ⟨0, _⟩ => exact rhsX_0 _ _
    | ⟨1, _⟩ => exact (rhsX_1 _ _).trans hk)
  rw [el, er]

theorem lhsE_0 (i : S128x4096.Idx) (q : dot_S128x16_S4096x16_S128x4096_1_1_0_0_n_n.contr.Idx) :
    (dot_S128x16_S4096x16_S128x4096_1_1_0_0_n_n.lhsIdx i q 0).val = (i 0).val := by
  unfold DotDims.lhsIdx
  rw [dif_neg (show ¬(0 : Fin S128x16.rank) ∈ dot_S128x16_S4096x16_S128x4096_1_1_0_0_n_n.lhsBatch by decide), dif_pos (show (0 : Fin S128x16.rank) ∈ dot_S128x16_S4096x16_S128x4096_1_1_0_0_n_n.lhsNonContracting by decide)]
  rfl
theorem lhsE_1 (i : S128x4096.Idx) (q : dot_S128x16_S4096x16_S128x4096_1_1_0_0_n_n.contr.Idx) :
    (dot_S128x16_S4096x16_S128x4096_1_1_0_0_n_n.lhsIdx i q 1).val = (q ⟨0, by decide⟩).val :=
  dot_S128x16_S4096x16_S128x4096_1_1_0_0_n_n.lhsIdx_val_of_single rfl i q
theorem rhsE_0 (i : S128x4096.Idx) (q : dot_S128x16_S4096x16_S128x4096_1_1_0_0_n_n.contr.Idx) :
    (dot_S128x16_S4096x16_S128x4096_1_1_0_0_n_n.rhsIdx i q 0).val = (i 1).val := by
  unfold DotDims.rhsIdx
  rw [dif_neg (show ¬(0 : Fin S4096x16.rank) ∈ dot_S128x16_S4096x16_S128x4096_1_1_0_0_n_n.rhsBatch by decide), dif_pos (show (0 : Fin S4096x16.rank) ∈ dot_S128x16_S4096x16_S128x4096_1_1_0_0_n_n.rhsNonContracting by decide)]
  rfl
theorem rhsE_1 (i : S128x4096.Idx) (q : dot_S128x16_S4096x16_S128x4096_1_1_0_0_n_n.contr.Idx) :
    (dot_S128x16_S4096x16_S128x4096_1_1_0_0_n_n.rhsIdx i q 1).val = (q ⟨0, by decide⟩).val :=
  dot_S128x16_S4096x16_S128x4096_1_1_0_0_n_n.rhsIdx_val_of_single rfl i q

/-- Entry (p, j) of the embedding-space inner products: the sum over the 16 columns of e0 (p, k) · e1 (j, k). -/
theorem gramE_apply (e0 : FVec Ideal S128x16 .f32) (e1 : FVec Ideal S4096x16 .f32) (p : Fin 128) (j : Fin 4096) :
    matmul dot_S128x16_S4096x16_S128x4096_1_1_0_0_n_n (some .fp32) e0 e1 (constant S128x4096 .f32 0x00000000#32) (ix2 p j)
      = ∑ k : Fin 16, e0 (ix2 p k) * e1 (ix2 j k) := by
  simp only [matmul]
  rw [Ideal.matmul_constant_zero_apply, ← Equiv.sum_comp (ValueIdx.contrEquiv1 dot_S128x16_S4096x16_S128x4096_1_1_0_0_n_n 16 rfl rfl).symm]
  refine Finset.sum_congr rfl fun k _ => ?_
  have hk := ValueIdx.contrEquiv1_symm_val dot_S128x16_S4096x16_S128x4096_1_1_0_0_n_n 16 rfl rfl k
  have el : dot_S128x16_S4096x16_S128x4096_1_1_0_0_n_n.lhsIdx (ix2 p j) ((ValueIdx.contrEquiv1 dot_S128x16_S4096x16_S128x4096_1_1_0_0_n_n 16 rfl rfl).symm k) = ix2 p k := funext fun a => Fin.ext (by
    match a with
    | ⟨0, _⟩ => exact lhsE_0 _ _
    | ⟨1, _⟩ => exact (lhsE_1 _ _).trans hk)
  have er : dot_S128x16_S4096x16_S128x4096_1_1_0_0_n_n.rhsIdx (ix2 p j) ((ValueIdx.contrEquiv1 dot_S128x16_S4096x16_S128x4096_1_1_0_0_n_n 16 rfl rfl).symm k) = ix2 j k := funext fun a => Fin.ext (by
    match a with
    | ⟨0, _⟩ => exact rhsE_0 _ _
    | ⟨1, _⟩ => exact (rhsE_1 _ _).trans hk)
  rw [el, er]

/-! ## A row sum kept as a column, and a matrix minus its row means -/

/-- The sum of a [128, 4096] matrix along each row, kept as a [128, 1] column. -/
def rowSumK (w : FVec Ideal S128x4096 .f32) : FVec Ideal S128x1 .f32 :=
  shapeCast S128x1 (multiReduction .add [1] S128 w 0x00000000#32 reduces_S128x4096_S128 (.inl rfl) rfl) shapeCasts_S128_S128x1

/-- Entry (p, 0) of the row sums is the sum of row p. -/
theorem rowSumK_apply (w : FVec Ideal S128x4096 .f32) (p : Fin 128) :
    rowSumK w (ix2 p (0 : Fin 1)) = ∑ j : Fin 4096, w (ix2 p j) := by
  unfold rowSumK
  refine (shapeCast_a_a1_apply _ shapeCasts_S128_S128x1 p 0).trans ?_
  refine (Ideal.multiReduction_add_single w 0x00000000#32 reduces_S128x4096_S128 (.inl rfl) rfl (ix1 p)).trans ?_
  refine Finset.sum_congr rfl fun k _ => congrArg w ?_
  funext a; refine Fin.ext ?_
  match a with
  | ⟨0, _⟩ => rfl
  | ⟨1, _⟩ => rfl

/-- A [128, 4096] matrix minus, in each row, that row's sum divided by 4096. -/
def centerK (w : FVec Ideal S128x4096 .f32) : FVec Ideal S128x4096 .f32 :=
  subf w (broadcastTo S128x4096 (divf (rowSumK w) (broadcast S128x1 (Scalar.ofBits .f32 0x45800000#32))) broadcasts_S128x1_S128x4096)

/-- Entry (p, j) of the centred matrix is the centred row p at j. -/
theorem centerK_apply (w : FVec Ideal S128x4096 .f32) (p : Fin 128) (j : Fin 4096) :
    centerK w (ix2 p j) = centered (fun j' => w (ix2 p j')) j := by
  have e : broadcastTo S128x4096 (divf (rowSumK w) (broadcast S128x1 (Scalar.ofBits (F := Ideal) .f32 0x45800000#32))) broadcasts_S128x1_S128x4096 (ix2 p j)
      = Ideal.div (∑ j' : Fin 4096, w (ix2 p j')) (Ideal.ofBits .f32 0x45800000#32) := by
    refine (broadcastTo_a1_ab_apply _ broadcasts_S128x1_S128x4096 p j).trans ?_
    show Ideal.div (rowSumK w (ix2 p (0 : Fin 1))) (Ideal.ofBits .f32 0x45800000#32) = _
    rw [rowSumK_apply]
  have h1 : centerK w (ix2 p j) = w (ix2 p j) - Ideal.div (∑ j' : Fin 4096, w (ix2 p j')) (Ideal.ofBits .f32 0x45800000#32) :=
    congrArg (w (ix2 p j) - ·) e
  rw [h1, centered_eq]

/-! ## The distance matrix, entrywise -/

/-- The distance matrix from the matrix s of summed square-sums and the matrix g of inner products. -/
def disK (s g : FVec Ideal S128x4096 .f32) : FVec Ideal S128x4096 .f32 :=
  select
    (cmpf .ogt (maximumf (subf s (mulf (broadcast S128x4096 (Scalar.ofBits .f32 0x40000000#32)) g)) (broadcast S128x4096 (Scalar.ofBits .f32 0x00000000#32)))
      (broadcast S128x4096 (Scalar.ofBits .f32 0x00000000#32)))
    (sqrt (select
      (cmpf .ogt (maximumf (subf s (mulf (broadcast S128x4096 (Scalar.ofBits .f32 0x40000000#32)) g)) (broadcast S128x4096 (Scalar.ofBits .f32 0x00000000#32)))
        (broadcast S128x4096 (Scalar.ofBits .f32 0x00000000#32)))
      (maximumf (subf s (mulf (broadcast S128x4096 (Scalar.ofBits .f32 0x40000000#32)) g)) (broadcast S128x4096 (Scalar.ofBits .f32 0x00000000#32)))
      (broadcast S128x4096 (Scalar.ofBits .f32 0x3F800000#32))))
    (broadcast S128x4096 (Scalar.ofBits .f32 0x00000000#32))

/-- Each entry of the distance matrix is the distance of the two entries. -/
theorem disK_apply (s g : FVec Ideal S128x4096 .f32) (i : S128x4096.Idx) : disK s g i = dis (s i) (g i) := rfl

end Cert.Corr

end
-- ==== Proof.CorrPayload.lean ====
import proofs.«140878_j88596585382792_1_alg».proof.Proof.CorrKernelOps

/-!
# One block's stored column is the row correlations

At a grid point the body forms, from the block of 128 data rows and all 4096 data rows, the block's distance matrix in
the data space; from the block of embedding rows and all embedding rows, the inner products in the embedding space,
and the two spreads of the embedding square-sums. The stored [128, 1] column then is, at row p, the correlation of the
row's two distance vectors: the distance matrices are entrywise in the summed square-sums and the inner products, the
centring and the three sums run along row p only, so entry (p, 0) depends on row p of the block and on all 4096 rows.
-/

noncomputable section

open scoped BigOperators

namespace Cert.Corr

open Idealize.ShloMosaic Idealize.ShloMosaic.ValueIdx Cert.KernelIdeal Cert.KernelIdeal.Gen

/-- The stored column as a composition: the row sums of the product of the two centred distance matrices, over the
    product of the square roots of the row sums of their squares. -/
theorem pay1_eq (v31 v32 v33 v34 : FVec Ideal S128x4096 .f32) :
    k0_pay1 (F := Ideal) v31 v32 v33 v34 =
      divf (rowSumK (mulf (centerK v31) (centerK (disK (addf v33 v34) v32))))
        (mulf (sqrt (rowSumK (mulf (centerK v31) (centerK v31))))
          (sqrt (rowSumK (mulf (centerK (disK (addf v33 v34) v32)) (centerK (disK (addf v33 v34) v32)))))) := rfl

/-- The data-space distance matrix as a composition. -/
theorem pay2_eq (x0 : Vec Ideal S128x784 .f32) (x1 : Vec Ideal S4096x784 .f32) (sb : Vec Ideal S128x1 .f32)
    (sf : Vec Ideal S1x4096 .f32) :
    k0_pay2 (F := Ideal) x0 x1 sb sf =
      disK (addf (broadcastTo S128x4096 (shapeCast S128x1 sb shapeCasts_S128x1_S128x1) broadcasts_S128x1_S128x4096)
          (broadcastTo S128x4096 (shapeCast S1x4096 sf shapeCasts_S1x4096_S1x4096) broadcasts_S1x4096_S128x4096))
        (matmul (φ₁ := .f32) (φ₂ := .f32) dot_S128x784_S4096x784_S128x4096_1_1_0_0_n_n (some .fp32) x0 x1 (constant S128x4096 .f32 0x00000000#32)) := rfl

/-- A [128, 1] column spread over 4096 columns reads its entry p at (p, j). -/
theorem spreadCol_apply (v : FVec Ideal S128x1 .f32) (p : Fin 128) (j : Fin 4096) :
    broadcastTo S128x4096 (shapeCast S128x1 v shapeCasts_S128x1_S128x1) broadcasts_S128x1_S128x4096 (ix2 p j)
      = v (ix2 p (0 : Fin 1)) :=
  (broadcastTo_a1_ab_apply _ broadcasts_S128x1_S128x4096 p j).trans
    (congrFun (shapeCast_self v shapeCasts_S128x1_S128x1) _)

/-- A [1, 4096] row spread over 128 rows reads its entry j at (p, j). -/
theorem spreadRow_apply (v : FVec Ideal S1x4096 .f32) (p : Fin 128) (j : Fin 4096) :
    broadcastTo S128x4096 (shapeCast S1x4096 v shapeCasts_S1x4096_S1x4096) broadcasts_S1x4096_S128x4096 (ix2 p j)
      = v (ix2 (0 : Fin 1) j) :=
  (broadcastTo_1b_ab_apply _ broadcasts_S1x4096_S128x4096 p j).trans
    (congrFun (shapeCast_self v shapeCasts_S1x4096_S1x4096) _)

/-- Entry (p, j) of the data-space distance matrix. -/
theorem pay2_apply (x0 : Vec Ideal S128x784 .f32) (x1 : Vec Ideal S4096x784 .f32) (sb : Vec Ideal S128x1 .f32)
    (sf : Vec Ideal S1x4096 .f32) (p : Fin 128) (j : Fin 4096) :
    k0_pay2 (F := Ideal) x0 x1 sb sf (ix2 p j)
      = dis (sb (ix2 p (0 : Fin 1)) + sf (ix2 (0 : Fin 1) j)) (∑ k : Fin 784, x0 (ix2 p k) * x1 (ix2 j k)) := by
  rw [pay2_eq, disK_apply]
  exact congrArg₂ dis (congrArg₂ (· + ·) (spreadCol_apply sb p j) (spreadRow_apply sf p j)) (gramX_apply x0 x1 p j)

/-- Entry (p, j) of the embedding-space inner products. -/
theorem pay3_apply (e0 : Vec Ideal S128x16 .f32) (e1 : Vec Ideal S4096x16 .f32) (p : Fin 128) (j : Fin 4096) :
    k0_pay3 (F := Ideal) e0 e1 (ix2 p j) = ∑ k : Fin 16, e0 (ix2 p k) * e1 (ix2 j k) := by
  have h : k0_pay3 (F := Ideal) e0 e1
      = matmul (φ₁ := .f32) (φ₂ := .f32) dot_S128x16_S4096x16_S128x4096_1_1_0_0_n_n (some .fp32) (shapeCast S128x16 e0 shapeCasts_S128x16_S128x16)
          (shapeCast S4096x16 e1 shapeCasts_S4096x16_S4096x16) (constant S128x4096 .f32 0x00000000#32) := rfl
  rw [h, shapeCast_self, shapeCast_self]
  exact gramE_apply e0 e1 p j

/-- Entry (p, j) of the spread of the block's embedding square-sums. -/
theorem pay4_apply (tb : Vec Ideal S128x1 .f32) (p : Fin 128) (j : Fin 4096) :
    k0_pay4 (F := Ideal) tb (ix2 p j) = tb (ix2 p (0 : Fin 1)) := spreadCol_apply tb p j

/-- Entry (p, j) of the spread of all rows' embedding square-sums. -/
theorem pay5_apply (tf : Vec Ideal S1x4096 .f32) (p : Fin 128) (j : Fin 4096) :
    k0_pay5 (F := Ideal) tf (ix2 p j) = tf (ix2 (0 : Fin 1) j) := spreadRow_apply tf p j

/-- THE STORED COLUMN AT ROW p is the correlation of row p of the block against all rows, with the square-sums read
    from the block's column (the row's own) and from the full row (every row's). -/
theorem payload_row (x0 : Vec Ideal S128x784 .f32) (x1 : Vec Ideal S4096x784 .f32) (e0 : Vec Ideal S128x16 .f32)
    (e1 : Vec Ideal S4096x16 .f32) (sb : Vec Ideal S128x1 .f32) (sf : Vec Ideal S1x4096 .f32)
    (tb : Vec Ideal S128x1 .f32) (tf : Vec Ideal S1x4096 .f32) (p : Fin 128) :
    k0_pay1 (F := Ideal) (k0_pay2 x0 x1 sb sf) (k0_pay3 e0 e1) (k0_pay4 tb) (k0_pay5 tf) (ix2 p (0 : Fin 1))
      = corrRow (fun k => x0 (ix2 p k)) (fun j k => x1 (ix2 j k)) (fun k => e0 (ix2 p k)) (fun j k => e1 (ix2 j k))
          (sb (ix2 p (0 : Fin 1))) (fun j => sf (ix2 (0 : Fin 1) j))
          (tb (ix2 p (0 : Fin 1))) (fun j => tf (ix2 (0 : Fin 1) j)) := by
  have hH : ∀ j : Fin 4096, centerK (k0_pay2 (F := Ideal) x0 x1 sb sf) (ix2 p j)
      = centered (fun j => dis (sb (ix2 p (0 : Fin 1)) + sf (ix2 (0 : Fin 1) j)) (∑ k : Fin 784, x0 (ix2 p k) * x1 (ix2 j k))) j :=
    fun j => (centerK_apply _ p j).trans
      (congrArg (fun v => centered v j) (funext fun j' => pay2_apply x0 x1 sb sf p j'))
  have hL : ∀ j : Fin 4096, centerK (disK (addf (k0_pay4 (F := Ideal) tb) (k0_pay5 (F := Ideal) tf)) (k0_pay3 (F := Ideal) e0 e1)) (ix2 p j)
      = centered (fun j => dis (tb (ix2 p (0 : Fin 1)) + tf (ix2 (0 : Fin 1) j)) (∑ k : Fin 16, e0 (ix2 p k) * e1 (ix2 j k))) j :=
    fun j => (centerK_apply _ p j).trans
      (congrArg (fun v => centered v j) (funext fun j' => by
        rw [disK_apply]
        exact congrArg₂ dis (congrArg₂ (· + ·) (pay4_apply tb p j') (pay5_apply tf p j')) (pay3_apply e0 e1 p j')))
  rw [pay1_eq]
  show Ideal.div (rowSumK _ (ix2 p (0 : Fin 1)))
      (Ideal.sqrt (rowSumK _ (ix2 p (0 : Fin 1))) * Ideal.sqrt (rowSumK _ (ix2 p (0 : Fin 1)))) = _
  rw [rowSumK_apply, rowSumK_apply, rowSumK_apply]
  unfold corrRow
  rw [pearson_eq]
  simp only [mulf_apply, hH, hL]

end Cert.Corr

end
-- ==== Proof.IdealValue.lean ====
/-
  The result column at the extended reals. At every grid point the body stores, at row p of its block, the
  correlation of that row computed from the eight input blocks; read through the blocks' places in their arrays this
  is the correlation of row 128·t + p of the whole arrays. The 32 blocks cover the column, so after the run the
  column holds, at every row r, the correlation of row r: one function of the buffers as the region found them.
-/
import proofs.«140878_j88596585382792_1_alg».proof.Proof.IdealBlocks
import proofs.«140878_j88596585382792_1_alg».proof.Proof.IdealShare
import proofs.«140878_j88596585382792_1_alg».proof.Proof.CorrPayload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The result column as the region's entry buffers determine it: at row r the correlation of row r — the feature
    matrix, the embedding matrix, and their square-sums as the column and the row buffers hold them. -/
def Gcol (c : Dev nD) : S4096x1.Idx → EReal := fun i =>
  Cert.Corr.corrRow (fun k : Fin 784 => V m c main_arg1 (ix2 (i 0) k)) (fun (j : Fin 4096) (k : Fin 784) => V m c main_arg1 (ix2 j k))
    (fun k : Fin 16 => V m c main_v62 (ix2 (i 0) k)) (fun (j : Fin 4096) (k : Fin 16) => V m c main_v62 (ix2 j k))
    (V m c main_v67 (ix2 (i 0) (0 : Fin 1))) (fun j : Fin 4096 => V m c main_v68 (ix2 (0 : Fin 1) j))
    (V m c main_v69 (ix2 (i 0) (0 : Fin 1))) (fun j : Fin 4096 => V m c main_v70 (ix2 (0 : Fin 1) j))

theorem hz : (![0, 0] : Fin 2 → Nat) = fun _ => 0 := funext fun a => by fin_cases a <;> rfl

set_option maxHeartbeats 1000000 in
/-- WHAT POINT t WRITES BACK is block t of the column `Gcol`. -/
theorem flushed8_eq (c : Dev nD) (t : Fin cfg0.N) :
    (dats m 0 c).flushed 8 t = ((cfg0.win 8).blk t).view.read (Elt Ideal) (Gcol m c) := by
  show (cfg0.win 8).cut (grid0.coords t) ((dats m 0 c).after 8 t) = _
  rw [after8]
  unfold out8
  rw [View.canon_unit_zero hz]
  simp only [View.ld_unit_zero (S := S128x784) hz, View.ld_unit_zero (S := S4096x784) hz, View.ld_unit_zero (S := S128x16) hz,
    View.ld_unit_zero (S := S4096x16) hz, View.ld_unit_zero (S := S128x1) hz, View.ld_unit_zero (S := S1x4096) hz]
  funext j
  obtain ⟨p, q, rfl⟩ : ∃ (p : Fin 128) (q : Fin 1), j = ix2 p q := ⟨j 0, j 1, eq_ix2 j⟩
  obtain rfl : q = 0 := Subsingleton.elim _ _
  show k0_pay1 (F := Ideal) (k0_pay2 (iblk m c 0 t) (iblk m c 1 t) (iblk m c 4 t) (iblk m c 5 t)) (k0_pay3 (iblk m c 2 t) (iblk m c 3 t))
      (k0_pay4 (iblk m c 6 t)) (k0_pay5 (iblk m c 7 t)) (ix2 p (0 : Fin 1))
    = Gcol m c (((cfg0.win 8).blk t).view.emb (ix2 p (0 : Fin 1)))
  rw [emb8]
  refine (Cert.Corr.payload_row (iblk m c 0 t) (iblk m c 1 t) (iblk m c 2 t) (iblk m c 3 t) (iblk m c 4 t) (iblk m c 5 t)
    (iblk m c 6 t) (iblk m c 7 t) p).trans ?_
  unfold Gcol
  simp only [blk0, blk1, blk2, blk3, blk4, blk5, blk6, blk7]

/-- THE COLUMN after the run: the correlation of row r at every row r. -/
theorem final8 (c : Dev nD) : (dats m 0 c).arrAt 8 cfg0.N = Gcol m c :=
  (dats m 0 c).arrAt_eq_of_cover 8 (Gcol m c) (fun t _ => flushed8_eq m c t) cover_out

end Cert.KernelIdeal.Hand

end
-- ==== Proof.CorrTail.lean ====
import proofs.«140878_j88596585382792_1_alg».proof.Proof.CorrSpec

/-!
# The loss from a column of row correlations

When the 4096 row correlations arrive as a [4096, 1] column, their total over both axes is their sum over the rows:
the second axis has the one coordinate 0. The final combination applied to that column is then the specification's
loss of the rows' entries.
-/

noncomputable section

open scoped BigOperators

namespace Cert.Corr

open Idealize.ShloMosaic Idealize.ShloMosaic.ValueIdx

/-- A sum over the index set of an [n, 1] column is the sum over its rows. -/
theorem sum_idx_col {M : Type*} [AddCommMonoid M] {n : Nat} (f : (⟨2, ![n, 1]⟩ : Shape).Idx → M) :
    ∑ i, f i = ∑ r : Fin n, f (ix2 r (0 : Fin 1)) := by
  rw [ValueIdx.sum_idx2]
  exact Finset.sum_congr rfl fun r _ => Fin.sum_univ_one _

/-- The final combination over a [4096, 1] column of correlations is the loss of its rows. -/
theorem loss_of_column (ce : EReal) (out : (⟨2, ![4096, 1]⟩ : Shape).Idx → EReal) :
    Ideal.ofBits .f32 0x3F6E0000#32 * ce
      + Ideal.ofBits .f32 0x3D900000#32
        * (-(Ideal.div (Ideal.ofBits .f32 0x00000000#32 + ∑ i, out i) (Ideal.ofBits .f32 0x45800000#32)))
      = loss ce (fun r => out (ix2 r (0 : Fin 1))) := by
  unfold loss; rw [sum_idx_col]

end Cert.Corr

end
-- ==== Proof.IdealResult.lean ====
/-
  The kernel's result. After the region the host sums the result column over both axes, divides by 4096, negates,
  and adds the outcome with weight 0.0703125 to the cross-entropy mean with weight 0.9296875. Read at the scalar index
  this is the loss of the cross-entropy mean and of the column's rows; with the column at the correlations of the
  rows, and the buffers the region read expressed through the arguments, it is the specification's loss of the three
  arguments.
-/
import proofs.«140878_j88596585382792_1_alg».proof.Proof.IdealFrame
import proofs.«140878_j88596585382792_1_alg».proof.Proof.IdealValue
import proofs.«140878_j88596585382792_1_alg».proof.Proof.CorrTail

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-- The ten operations after the region, as one function of the cross-entropy mean's buffer and the result column. -/
def tailOf (x : (⟨S_, .f32⟩ : BufTy).Contents (Elt Ideal)) (y : (⟨S4096x1, .f32⟩ : BufTy).Contents (Elt Ideal)) :
    (⟨S_, .f32⟩ : BufTy).Contents (Elt Ideal) :=
  addf (F := Ideal) (mulf (F := Ideal) (constant (F := Ideal) S_ .f32 0x3F6E0000#32) x)
    (mulf (F := Ideal) (constant (F := Ideal) S_ .f32 0x3D900000#32)
      (Host.negf (F := Ideal) (Host.divf (F := Ideal)
        (Host.reduceAdd (F := Ideal) y (constant (F := Ideal) S_ .f32 0x00000000#32) reducesTo_S4096x1_S_d0_1 h_S_)
        (constant (F := Ideal) S_ .f32 0x45800000#32))))

/-- At the scalar index: the loss of the mean and of the column's rows (the sum over both axes of a [4096, 1] column
    is the sum over its rows). -/
theorem tailOf_eq (x : (⟨S_, .f32⟩ : BufTy).Contents (Elt Ideal)) (y : (⟨S4096x1, .f32⟩ : BufTy).Contents (Elt Ideal)) :
    tailOf x y = fun _ => Cert.Corr.loss (x ix0) (fun r => y (ix2 r (0 : Fin 1))) := by
  funext i
  obtain rfl : i = ix0 := eq_ix0 i
  have hsum : Host.reduceAdd (F := Ideal) y (constant (F := Ideal) S_ .f32 0x00000000#32) reducesTo_S4096x1_S_d0_1 h_S_ ix0
      = Ideal.ofBits .f32 0x00000000#32 + ∑ i, y i := by
    simp only [Host.reduceAdd, Ideal.hostReduceAdd_def]
    exact Ideal.hostReduceAdd_total reducesTo_S4096x1_S_d0_1 (fun b => b.elim0) y _ ix0
  refine Eq.trans ?_ (Cert.Corr.loss_of_column (x ix0) y)
  rw [← hsum]
  rfl

/-- The last stretch of host operations, run from any contents: the result buffer ends at the tail of the cross-entropy
    mean's buffer and the result column as the stretch found them. -/
theorem tail_after (Wv : Valuation τ sig (Elt Ideal)) :
    StableHlo.after hostOps1 Wv (Proc.devRef .tc main_v77)
      = tailOf (Wv (Proc.devRef .tc main_v61)) (Wv (Proc.devRef .tc main_v71)) := by
  after_results
  rfl

variable (m : (ℓ : Loc nD τ sig) → Buf (Elt Ideal) ℓ)

/-- The result buffer at the end: the tail of the cross-entropy mean as the region found it and of the column as the
    region left it. -/
theorem result_v77 (c : Dev nD) :
    W15 m c (Proc.devRef .tc main_v77) = tailOf (W13 m c (Proc.devRef .tc main_v61)) (Gcol m c) := by
  refine (tail_after (W14 m c)).trans ?_
  rw [W14_v71, W14_ref m c main_v61 (by decide), final8]

end Cert.KernelIdeal.Hand

end
-- ==== Proof.IdealHeadArgs.lean ====
import proofs.«140878_j88596585382792_1_alg».proof.Proof.IdealBody
import Idealize.ShloMosaic.Lib.StableHlo.Run

/-!
# The arguments reach the region as launched

Thirteen stretches of host operations run before the region. Each operation writes one buffer, and none of them
writes an argument of the program: the three arguments hold, when the region starts, what they held at launch.
-/

set_option maxRecDepth 16384

noncomputable section

namespace Cert.KernelIdeal.Head

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-- An operation whose one written buffer is another reference does not write this one. -/
theorem not_written {op : HloOp τ sig (Elt F)} {r y : Ref sig .tc} (hw : op.writes = {Proc.devRef .tc y}) (h : r ≠ y) :
    Proc.devRef (τ := τ) .tc r ∉ op.writes := by
  rw [hw, Finset.mem_singleton]; exact StableHlo.devRef_ne_of_ne h

/-- One stretch of host operations leaves a buffer none of its operations writes as it was. -/
local macro "skip_stretch" : tactic => `(tactic|
  refine (StableHlo.after_of_forall_not_mem _ _ (List.forall_iff_forall_mem.mp (by
    repeat' (first | exact not_written rfl (by decide) | refine ⟨not_written rfl (by decide), ?_⟩)))).trans ?_)

variable (m : (ℓ : Loc nD τ sig) → Buf (Elt F) ℓ) (c : Dev nD)

/-- No host operation of the first twelve stretches writes the first argument. -/
theorem W12_arg0 : W12 m c (Proc.devRef .tc main_arg0) = m ((c : Thread nD τ).loc main_arg0) := by
  iterate 12 skip_stretch
  rfl

/-- No host operation of the first twelve stretches writes the second argument. -/
theorem W12_arg1 : W12 m c (Proc.devRef .tc main_arg1) = m ((c : Thread nD τ).loc main_arg1) := by
  iterate 12 skip_stretch
  rfl

/-- No host operation before the region writes the first argument. -/
theorem W13_arg0 : W13 m c (Proc.devRef .tc main_arg0) = m ((c : Thread nD τ).loc main_arg0) := by
  skip_stretch
  exact W12_arg0 m c

/-- No host operation before the region writes the second argument. -/
theorem W13_arg1 : W13 m c (Proc.devRef .tc main_arg1) = m ((c : Thread nD τ).loc main_arg1) := by
  skip_stretch
  exact W12_arg1 m c

/-- No host operation before the region writes the third argument. -/
theorem W13_arg2 : W13 m c (Proc.devRef .tc main_arg2) = m ((c : Thread nD τ).loc main_arg2) := by
  iterate 13 skip_stretch
  rfl

end Cert.KernelIdeal.Head

end
-- ==== Proof.CorrRefRows.lean ====
import proofs.«140878_j88596585382792_1_alg».proof.Proof.Gen.ReferenceIdeal.Read
import proofs.«140878_j88596585382792_1_alg».proof.Proof.CorrSpec

/-!
# The reference's row correlations, read at an index

The reference forms the whole 4096 × 4096 distance matrix of the data rows and of the embedding rows (the first 16 of
the 32 columns of its first argument), centres each along its rows, and divides the row sums of the product by the
product of the square roots of the row sums of the squares. Read at row r, every stage depends on row r alone: the
distance at (r, j) is the distance of the summed square-sums of rows r and j and their inner product (the transposed
operand of the product read back as row j), the row mean at (r, ·) is that of row r, and the three sums run along
row r. So entry r of the resulting vector is the correlation of row r.
-/

noncomputable section

open scoped BigOperators

namespace Cert.Corr

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The square-sum of data row j as the reference forms it: the sum along the row of the entrywise square, from 0. -/
def SXref (a1 : (⟨S4096x784, .f32⟩ : BufTy).Contents (Elt Ideal)) (j : Fin 4096) : EReal :=
  Host.reduceAdd (F := Ideal) (φ := .f32) (mulf (F := Ideal) (φ := .f32) a1 a1) (constant (F := Ideal) S_ .f32 0x00000000#32)
    reducesTo_S4096x784_S4096_d1 h_S_ (ix1 j)

/-- It is the generated stage of that reduction, read at j. -/
theorem SXref_eq (a1 : (⟨S4096x784, .f32⟩ : BufTy).Contents (Elt Ideal)) (j : Fin 4096) :
    SXref a1 j = val_main_v64 (F := Ideal) a1 (ix1 j) := rfl

/-- The embedding rows: the first 16 of the 32 columns of the first argument. -/
def Eref (a0 : (⟨S4096x32, .f32⟩ : BufTy).Contents (Elt Ideal)) : FVec Ideal S4096x16 .f32 :=
  extractStridedSlice S4096x16 ![0, 0] a0 slices_S4096x32_S4096x16_0_0

theorem Eref_eq (a0 : (⟨S4096x32, .f32⟩ : BufTy).Contents (Elt Ideal)) : Eref a0 = val_main_v62 (F := Ideal) a0 := rfl

/-- An embedding entry is the first argument's entry in the same row and column. -/
theorem Eref_apply (a0 : (⟨S4096x32, .f32⟩ : BufTy).Contents (Elt Ideal)) (j : Fin 4096) (k : Fin 16) :
    Eref a0 (ix2 j k) = a0 (ix2 j (⟨k.val, Nat.lt_of_lt_of_le k.isLt (by decide)⟩ : Fin 32)) := by
  rw [Eref_eq, val_main_v62_apply]
  exact congrArg a0 (funext fun a => Fin.ext (by match a with | ⟨0, _⟩ => rfl | ⟨1, _⟩ => rfl))

/-- The square-sum of embedding row j as the reference forms it. -/
def SEref (a0 : (⟨S4096x32, .f32⟩ : BufTy).Contents (Elt Ideal)) (j : Fin 4096) : EReal :=
  Host.reduceAdd (F := Ideal) (φ := .f32) (mulf (F := Ideal) (φ := .f32) (Eref a0) (Eref a0)) (constant (F := Ideal) S_ .f32 0x00000000#32)
    reducesTo_S4096x16_S4096_d1 h_S_ (ix1 j)

theorem SEref_eq (a0 : (⟨S4096x32, .f32⟩ : BufTy).Contents (Elt Ideal)) (j : Fin 4096) :
    SEref a0 j = val_main_v85 (F := Ideal) a0 (ix1 j) := rfl

/-! ## The data space -/

/-- The inner product of data rows r and j. -/
theorem ref_gramX (a1 : (⟨S4096x784, .f32⟩ : BufTy).Contents (Elt Ideal)) (r j : Fin 4096) :
    val_main_v66 (F := Ideal) a1 (ix2 r j) = ∑ k : Fin 784, a1 (ix2 r k) * a1 (ix2 j k) := by
  rw [val_main_v66_apply]
  refine Finset.sum_congr rfl fun k _ => ?_
  rw [val_main_v65_apply]
  exact congrArg₂ (· * ·)
    (congrArg a1 (funext fun a => Fin.ext (by match a with | ⟨0, _⟩ => rfl | ⟨1, _⟩ => rfl)))
    (congrArg a1 (funext fun a => Fin.ext (by match a with | ⟨0, _⟩ => rfl | ⟨1, _⟩ => rfl)))

/-- The data-space distance at (r, j). -/
theorem ref_disX (a1 : (⟨S4096x784, .f32⟩ : BufTy).Contents (Elt Ideal)) (r j : Fin 4096) :
    val_main_v83 (F := Ideal) a1 (ix2 r j)
      = dis (SXref a1 r + SXref a1 j) (∑ k : Fin 784, a1 (ix2 r k) * a1 (ix2 j k)) := by
  have h : val_main_v83 (F := Ideal) a1 (ix2 r j)
      = dis (val_main_v69 (F := Ideal) a1 (ix2 r j) + val_main_v70 (F := Ideal) a1 (ix2 r j))
          (val_main_v66 (F := Ideal) a1 (ix2 r j)) := rfl
  rw [h, val_main_v69_apply, val_main_v67_apply, val_main_v70_apply, val_main_v68_apply, ref_gramX, SXref_eq, SXref_eq]
  exact congrArg₂ dis (congrArg₂ (· + ·)
    (congrArg (val_main_v64 (F := Ideal) a1) (funext fun a => Fin.ext (by match a with | ⟨0, _⟩ => rfl)))
    (congrArg (val_main_v64 (F := Ideal) a1) (funext fun a => Fin.ext (by match a with | ⟨0, _⟩ => rfl)))) rfl

/-- The centred data-space distance at (r, j) is the centred row r at j. -/
theorem ref_centerX (a1 : (⟨S4096x784, .f32⟩ : BufTy).Contents (Elt Ideal)) (r j : Fin 4096) :
    val_main_v110 (F := Ideal) a1 (ix2 r j) = centered (fun j' => val_main_v83 (F := Ideal) a1 (ix2 r j')) j := by
  have h : val_main_v110 (F := Ideal) a1 (ix2 r j)
      = val_main_v83 (F := Ideal) a1 (ix2 r j) - val_main_v109 (F := Ideal) a1 (ix2 r j) := rfl
  have h2 : ∀ i', val_main_v108 (F := Ideal) a1 i'
      = Ideal.div (val_main_v106 (F := Ideal) a1 i') (Ideal.ofBits .f32 0x45800000#32) := fun _ => rfl
  rw [h, val_main_v109_apply, h2, val_main_v106_apply, val_main_v105_apply]
  unfold centered
  refine congrArg (val_main_v83 (F := Ideal) a1 (ix2 r j) - ·) (congrArg (Ideal.div · _)
    (congrArg₂ (· + ·) rfl (Finset.sum_congr rfl fun k _ => congrArg (val_main_v83 (F := Ideal) a1) ?_)))
  exact funext fun a => Fin.ext (by match a with | ⟨0, _⟩ => rfl | ⟨1, _⟩ => rfl)

/-! ## The embedding space -/

/-- The inner product of embedding rows r and j. -/
theorem ref_gramE (a0 : (⟨S4096x32, .f32⟩ : BufTy).Contents (Elt Ideal)) (r j : Fin 4096) :
    val_main_v87 (F := Ideal) a0 (ix2 r j) = ∑ k : Fin 16, Eref a0 (ix2 r k) * Eref a0 (ix2 j k) := by
  rw [val_main_v87_apply]
  refine Finset.sum_congr rfl fun k _ => ?_
  rw [val_main_v86_apply, Eref_eq]
  exact congrArg₂ (· * ·)
    (congrArg (val_main_v62 (F := Ideal) a0) (funext fun a => Fin.ext (by match a with | ⟨0, _⟩ => rfl | ⟨1, _⟩ => rfl)))
    (congrArg (val_main_v62 (F := Ideal) a0) (funext fun a => Fin.ext (by match a with | ⟨0, _⟩ => rfl | ⟨1, _⟩ => rfl)))

/-- The embedding-space distance at (r, j). -/
theorem ref_disE (a0 : (⟨S4096x32, .f32⟩ : BufTy).Contents (Elt Ideal)) (r j : Fin 4096) :
    val_main_v104 (F := Ideal) a0 (ix2 r j)
      = dis (SEref a0 r + SEref a0 j) (∑ k : Fin 16, Eref a0 (ix2 r k) * Eref a0 (ix2 j k)) := by
  have h : val_main_v104 (F := Ideal) a0 (ix2 r j)
      = dis (val_main_v90 (F := Ideal) a0 (ix2 r j) + val_main_v91 (F := Ideal) a0 (ix2 r j))
          (val_main_v87 (F := Ideal) a0 (ix2 r j)) := rfl
  rw [h, val_main_v90_apply, val_main_v88_apply, val_main_v91_apply, val_main_v89_apply, ref_gramE, SEref_eq, SEref_eq]
  exact congrArg₂ dis (congrArg₂ (· + ·)
    (congrArg (val_main_v85 (F := Ideal) a0) (funext fun a => Fin.ext (by match a with | ⟨0, _⟩ => rfl)))
    (congrArg (val_main_v85 (F := Ideal) a0) (funext fun a => Fin.ext (by match a with | ⟨0, _⟩ => rfl)))) rfl

/-- The centred embedding-space distance at (r, j) is the centred row r at j. -/
theorem ref_centerE (a0 : (⟨S4096x32, .f32⟩ : BufTy).Contents (Elt Ideal)) (r j : Fin 4096) :
    val_main_v116 (F := Ideal) a0 (ix2 r j) = centered (fun j' => val_main_v104 (F := Ideal) a0 (ix2 r j')) j := by
  have h : val_main_v116 (F := Ideal) a0 (ix2 r j)
      = val_main_v104 (F := Ideal) a0 (ix2 r j) - val_main_v115 (F := Ideal) a0 (ix2 r j) := rfl
  have h2 : ∀ i', val_main_v114 (F := Ideal) a0 i'
      = Ideal.div (val_main_v112 (F := Ideal) a0 i') (Ideal.ofBits .f32 0x45800000#32) := fun _ => rfl
  rw [h, val_main_v115_apply, h2, val_main_v112_apply, val_main_v111_apply]
  unfold centered
  refine congrArg (val_main_v104 (F := Ideal) a0 (ix2 r j) - ·) (congrArg (Ideal.div · _)
    (congrArg₂ (· + ·) rfl (Finset.sum_congr rfl fun k _ => congrArg (val_main_v104 (F := Ideal) a0) ?_)))
  exact funext fun a => Fin.ext (by match a with | ⟨0, _⟩ => rfl | ⟨1, _⟩ => rfl)

/-! ## One row's correlation -/

/-- Entry r of the reference's correlation vector, over its centred distance matrices. -/
theorem ref_pearson (a0 : (⟨S4096x32, .f32⟩ : BufTy).Contents (Elt Ideal))
    (a1 : (⟨S4096x784, .f32⟩ : BufTy).Contents (Elt Ideal)) (r : Fin 4096) :
    val_main_v126 (F := Ideal) a0 a1 (ix1 r)
      = pearson (fun j => val_main_v110 (F := Ideal) a1 (ix2 r j)) (fun j => val_main_v116 (F := Ideal) a0 (ix2 r j)) := by
  have h : val_main_v126 (F := Ideal) a0 a1 (ix1 r)
      = Ideal.div (val_main_v118 (F := Ideal) a0 a1 (ix1 r))
          (Ideal.sqrt (val_main_v120 (F := Ideal) a1 (ix1 r)) * Ideal.sqrt (val_main_v123 (F := Ideal) a0 (ix1 r))) := rfl
  have hi : ∀ k : Fin 4096, idx_main_v118 (ix1 r) k = ix2 r k := fun k =>
    funext fun a => Fin.ext (by match a with | ⟨0, _⟩ => rfl | ⟨1, _⟩ => rfl)
  have hi' : ∀ k : Fin 4096, idx_main_v120 (ix1 r) k = ix2 r k := fun k =>
    funext fun a => Fin.ext (by match a with | ⟨0, _⟩ => rfl | ⟨1, _⟩ => rfl)
  have hi'' : ∀ k : Fin 4096, idx_main_v123 (ix1 r) k = ix2 r k := fun k =>
    funext fun a => Fin.ext (by match a with | ⟨0, _⟩ => rfl | ⟨1, _⟩ => rfl)
  rw [h, val_main_v118_apply, val_main_v120_apply, val_main_v123_apply]
  unfold pearson
  refine congrArg₂ Ideal.div
    (congrArg₂ (· + ·) rfl (Finset.sum_congr rfl fun k _ => ?_))
    (congrArg₂ (· * ·)
      (congrArg Ideal.sqrt (congrArg₂ (· + ·) rfl (Finset.sum_congr rfl fun k _ => ?_)))
      (congrArg Ideal.sqrt (congrArg₂ (· + ·) rfl (Finset.sum_congr rfl fun k _ => ?_))))
  · rw [hi k]; rfl
  · rw [hi' k]; rfl
  · rw [hi'' k]; rfl

/-- ENTRY r OF THE REFERENCE'S CORRELATION VECTOR is the correlation of row r. -/
theorem ref_corrRow (a0 : (⟨S4096x32, .f32⟩ : BufTy).Contents (Elt Ideal))
    (a1 : (⟨S4096x784, .f32⟩ : BufTy).Contents (Elt Ideal)) (r : Fin 4096) :
    val_main_v126 (F := Ideal) a0 a1 (ix1 r)
      = corrRow (fun k => a1 (ix2 r k)) (fun j k => a1 (ix2 j k)) (fun k => Eref a0 (ix2 r k)) (fun j k => Eref a0 (ix2 j k))
          (SXref a1 r) (SXref a1) (SEref a0 r) (SEref a0) := by
  rw [ref_pearson]
  unfold corrRow
  exact congrArg₂ pearson
    (funext fun j => (ref_centerX a1 r j).trans
      (congrArg (fun v => centered v j) (funext fun j' => ref_disX a1 r j')))
    (funext fun j => (ref_centerE a0 r j).trans
      (congrArg (fun v => centered v j) (funext fun j' => ref_disE a0 r j')))

end Cert.Corr

end
-- ==== Proof.CorrRef.lean ====
import proofs.«140878_j88596585382792_1_alg».proof.Proof.CorrRefRows

/-!
# The reference's result is the loss of the row correlations

The reference's last operations take the mean of the 4096 row correlations (their sum from 0, divided by 4096), negate
it, and add it with weight 0.0703125 to the cross-entropy mean with weight 0.9296875. The cross-entropy mean is kept as
the reference's own composed term: nothing here looks inside it. With each correlation entry read as the correlation of
its row, the result is the loss function of the specification.
-/

noncomputable section

open scoped BigOperators

namespace Cert.Corr

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The cross-entropy mean: the value the reference's division by 24576 writes, as the composition of the reference's
    own operations on the first and third arguments, read at the scalar index. -/
def ceRef (a0 : (⟨S4096x32, .f32⟩ : BufTy).Contents (Elt Ideal)) (a2 : (⟨S20480, .i32⟩ : BufTy).Contents (Elt Ideal)) : EReal :=
  val_main_v61 (F := Ideal) a0 a2 ix0

/-- THE REFERENCE'S RESULT as a function of its three arguments: the loss of the cross-entropy mean and of the
    correlations of the 4096 rows, the embedding rows being the first 16 columns of the first argument. -/
theorem ref_loss (a0 : (⟨S4096x32, .f32⟩ : BufTy).Contents (Elt Ideal))
    (a1 : (⟨S4096x784, .f32⟩ : BufTy).Contents (Elt Ideal)) (a2 : (⟨S20480, .i32⟩ : BufTy).Contents (Elt Ideal)) :
    val_main_v132 (F := Ideal) a0 a1 a2
      = fun _ => loss (ceRef a0 a2) (fun r =>
          corrRow (fun k => a1 (ix2 r k)) (fun j k => a1 (ix2 j k)) (fun k => Eref a0 (ix2 r k)) (fun j k => Eref a0 (ix2 j k))
            (SXref a1 r) (SXref a1) (SEref a0 r) (SEref a0)) := by
  funext i
  obtain rfl : i = ix0 := eq_ix0 i
  have h : val_main_v132 (F := Ideal) a0 a1 a2 ix0
      = Ideal.ofBits .f32 0x3F6E0000#32 * val_main_v61 (F := Ideal) a0 a2 ix0
        + Ideal.ofBits .f32 0x3D900000#32
          * (-(Ideal.div (val_main_v127 (F := Ideal) a0 a1 ix0) (Ideal.ofBits .f32 0x45800000#32))) := rfl
  rw [h, val_main_v127_apply, sum_idx1]
  unfold loss ceRef
  exact congrArg₂ (· + ·) rfl (congrArg (_ * ·) (congrArg Neg.neg (congrArg (Ideal.div · _)
    (congrArg₂ (· + ·) rfl (Finset.sum_congr rfl fun r _ => ref_corrRow a0 a1 r)))))

/-- The same with the embedding entries written as entries of the first argument: column k of the 16 is column k of
    the 32. -/
theorem ref_loss_arg0 (a0 : (⟨S4096x32, .f32⟩ : BufTy).Contents (Elt Ideal))
    (a1 : (⟨S4096x784, .f32⟩ : BufTy).Contents (Elt Ideal)) (a2 : (⟨S20480, .i32⟩ : BufTy).Contents (Elt Ideal)) :
    val_main_v132 (F := Ideal) a0 a1 a2
      = fun _ => loss (ceRef a0 a2) (fun r =>
          corrRow (fun k => a1 (ix2 r k)) (fun j k => a1 (ix2 j k))
            (fun k => a0 (ix2 r (⟨k.val, Nat.lt_of_lt_of_le k.isLt (by decide)⟩ : Fin 32)))
            (fun j k => a0 (ix2 j (⟨k.val, Nat.lt_of_lt_of_le k.isLt (by decide)⟩ : Fin 32)))
            (SXref a1 r) (SXref a1) (SEref a0 r) (SEref a0)) := by
  rw [ref_loss]
  simp only [Eref_apply]

end Cert.Corr

end
-- ==== Proof.IdealHead.lean ====
import proofs.«140878_j88596585382792_1_alg».proof.Proof.IdealHeadArgs
import proofs.«140878_j88596585382792_1_alg».proof.Proof.CorrRef
import proofs.«140878_j88596585382792_1_alg».proof.Proof.CorrLayout

/-!
# What the region finds in the buffers it reads, in the reference's terms

Before the region the host forms, from the three arguments, the embedding rows (the first 16 columns of the first
argument) and the square-sums of the data rows and of the embedding rows, each laid out once as a [4096, 1] column and
once as a [1, 4096] row. All of these are written by the last stretch of host operations, from the first two
arguments, which no earlier operation writes. Read at an index, the column at (r, 0) and the row at (0, j) are the
square-sum of row r and of row j, in the form the reference gives them.
-/

set_option maxRecDepth 16384

noncomputable section

namespace Cert.KernelIdeal.Head

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-! ## The last stretch, from any contents -/

section LastStretch

variable (V : Valuation τ sig (Elt Ideal))

/-- The embedding rows: the slice of the first argument. -/
theorem last_v62 : StableHlo.after hostOps0_12 V (Proc.devRef .tc main_v62) = Cert.Corr.Eref (V (Proc.devRef .tc main_arg0)) := by
  simp only [hostOps0_12]
  after_results
  try rfl

/-- The column of data square-sums at (r, 0). -/
theorem last_v67 (r : Fin 4096) :
    (StableHlo.after hostOps0_12 V (Proc.devRef .tc main_v67) : FVec Ideal S4096x1 .f32) (ix2 r (0 : Fin 1))
      = Cert.Corr.SXref (V (Proc.devRef .tc main_arg1)) r := by
  simp only [hostOps0_12]
  after_results
  exact Cert.Corr.shapeCast_a_a1_apply _ _ r 0

/-- The row of data square-sums at (0, j). -/
theorem last_v68 (j : Fin 4096) :
    (StableHlo.after hostOps0_12 V (Proc.devRef .tc main_v68) : FVec Ideal S1x4096 .f32) (ix2 (0 : Fin 1) j)
      = Cert.Corr.SXref (V (Proc.devRef .tc main_arg1)) j := by
  simp only [hostOps0_12]
  after_results
  exact shapeCast_a_1a_apply _ _ 0 j

/-- The column of embedding square-sums at (r, 0). -/
theorem last_v69 (r : Fin 4096) :
    (StableHlo.after hostOps0_12 V (Proc.devRef .tc main_v69) : FVec Ideal S4096x1 .f32) (ix2 r (0 : Fin 1))
      = Cert.Corr.SEref (V (Proc.devRef .tc main_arg0)) r := by
  simp only [hostOps0_12]
  after_results
  exact Cert.Corr.shapeCast_a_a1_apply _ _ r 0

/-- The row of embedding square-sums at (0, j). -/
theorem last_v70 (j : Fin 4096) :
    (StableHlo.after hostOps0_12 V (Proc.devRef .tc main_v70) : FVec Ideal S1x4096 .f32) (ix2 (0 : Fin 1) j)
      = Cert.Corr.SEref (V (Proc.devRef .tc main_arg0)) j := by
  simp only [hostOps0_12]
  after_results
  exact shapeCast_a_1a_apply _ _ 0 j

end LastStretch

/-! ## As the region finds them -/

variable (m : (ℓ : Loc nD τ sig) → Buf (Elt Ideal) ℓ) (c : Dev nD)

/-- The embedding rows the region reads are the reference's. -/
theorem W13_v62 : W13 m c (Proc.devRef .tc main_v62) = Cert.Corr.Eref (m ((c : Thread nD τ).loc main_arg0)) :=
  (last_v62 (W12 m c)).trans (congrArg Cert.Corr.Eref (W12_arg0 m c))

/-- The column of data square-sums the region reads, at (r, 0), is the reference's square-sum of data row r. -/
theorem W13_v67 (r : Fin 4096) :
    (W13 m c (Proc.devRef .tc main_v67) : FVec Ideal S4096x1 .f32) (ix2 r (0 : Fin 1))
      = Cert.Corr.SXref (m ((c : Thread nD τ).loc main_arg1)) r :=
  (last_v67 (W12 m c) r).trans (congrArg (fun a => Cert.Corr.SXref a r) (W12_arg1 m c))

/-- The row of data square-sums the region reads, at (0, j), is the reference's square-sum of data row j. -/
theorem W13_v68 (j : Fin 4096) :
    (W13 m c (Proc.devRef .tc main_v68) : FVec Ideal S1x4096 .f32) (ix2 (0 : Fin 1) j)
      = Cert.Corr.SXref (m ((c : Thread nD τ).loc main_arg1)) j :=
  (last_v68 (W12 m c) j).trans (congrArg (fun a => Cert.Corr.SXref a j) (W12_arg1 m c))

/-- The column of embedding square-sums the region reads, at (r, 0), is the reference's square-sum of embedding row r. -/
theorem W13_v69 (r : Fin 4096) :
    (W13 m c (Proc.devRef .tc main_v69) : FVec Ideal S4096x1 .f32) (ix2 r (0 : Fin 1))
      = Cert.Corr.SEref (m ((c : Thread nD τ).loc main_arg0)) r :=
  (last_v69 (W12 m c) r).trans (congrArg (fun a => Cert.Corr.SEref a r) (W12_arg0 m c))

/-- The row of embedding square-sums the region reads, at (0, j), is the reference's square-sum of embedding row j. -/
theorem W13_v70 (j : Fin 4096) :
    (W13 m c (Proc.devRef .tc main_v70) : FVec Ideal S1x4096 .f32) (ix2 (0 : Fin 1) j)
      = Cert.Corr.SEref (m ((c : Thread nD τ).loc main_arg0)) j :=
  (last_v70 (W12 m c) j).trans (congrArg (fun a => Cert.Corr.SEref a j) (W12_arg0 m c))

end Cert.KernelIdeal.Head

end
-- ==== Proof.IdealHeadCE.lean ====
import proofs.«140878_j88596585382792_1_alg».proof.Proof.IdealHeadArgs
import proofs.«140878_j88596585382792_1_alg».proof.Proof.CorrRef

/-!
# The cross-entropy mean the region's program forms is the reference's

The host operations before the region include, operation for operation, the reference's own computation of the
cross-entropy mean from the first and third arguments: the same slices, gathers, distances, powers, clips and
logarithms, the same sum and the same division. Composing the operations' results along the thirteen stretches gives
the reference's composed term applied to the launch contents of the two arguments; nothing is evaluated.
-/

noncomputable section

namespace Cert.KernelIdeal.Head

open Cert.KernelIdeal Cert.KernelIdeal.Gen Cert.KernelIdeal.Hand
open Idealize.ShloMosaic Idealize.ShloMosaic.TcCoe Idealize.SL.Sem Idealize.ShloMosaic.StableHlo Idealize.ShloMosaic.ValueIdx

set_option maxRecDepth 65536 in
set_option maxHeartbeats 4000000 in
/-- The buffer of the cross-entropy mean, as the region finds it, holds the reference's composed term of the first and
    third arguments. -/
theorem W13_v61 (m : (ℓ : Loc nD τ sig) → Buf (Elt Ideal) ℓ) (c : Dev nD) :
    W13 m c (Proc.devRef .tc main_v61)
      = Cert.ReferenceIdeal.Read.val_main_v61 (F := Ideal) (m ((c : Thread nD τ).loc main_arg0)) (m ((c : Thread nD τ).loc main_arg2)) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8,
      hostOps0_9, hostOps0_10, hostOps0_11, hostOps0_12]
  after_results_simp
  simp only [Cert.ReferenceIdeal.Read.val_main_v61,
    Cert.ReferenceIdeal.Read.val_main_cst_24,
    Cert.ReferenceIdeal.Read.val_main_v60,
    Cert.ReferenceIdeal.Read.val_main_cst_23,
    Cert.ReferenceIdeal.Read.val_main_v59,
    Cert.ReferenceIdeal.Read.val_main_v58,
    Cert.ReferenceIdeal.Read.val_main_v57,
    Cert.ReferenceIdeal.Read.val_main_cst_22,
    Cert.ReferenceIdeal.Read.val_main_v56,
    Cert.ReferenceIdeal.Read.val_main_v55,
    Cert.ReferenceIdeal.Read.val_main_v54,
    Cert.ReferenceIdeal.Read.val_main_call5_v4,
    Cert.ReferenceIdeal.Read.val_main_call5_v3,
    Cert.ReferenceIdeal.Read.val_main_call5_v2,
    Cert.ReferenceIdeal.Read.val_main_call5_v1,
    Cert.ReferenceIdeal.Read.val_main_call5_v0,
    Cert.ReferenceIdeal.Read.val_main_cst_21,
    Cert.ReferenceIdeal.Read.val_main_cst_20,
    Cert.ReferenceIdeal.Read.val_main_v53,
    Cert.ReferenceIdeal.Read.val_main_v52,
    Cert.ReferenceIdeal.Read.val_main_cst_19,
    Cert.ReferenceIdeal.Read.val_main_v51,
    Cert.ReferenceIdeal.Read.val_main_v50,
    Cert.ReferenceIdeal.Read.val_main_v49,
    Cert.ReferenceIdeal.Read.val_main_cst_18,
    Cert.ReferenceIdeal.Read.val_main_v48,
    Cert.ReferenceIdeal.Read.val_main_v47,
    Cert.ReferenceIdeal.Read.val_main_v46,
    Cert.ReferenceIdeal.Read.val_main_call4_v4,
    Cert.ReferenceIdeal.Read.val_main_call4_v3,
    Cert.ReferenceIdeal.Read.val_main_call4_v2,
    Cert.ReferenceIdeal.Read.val_main_call4_v1,
    Cert.ReferenceIdeal.Read.val_main_call4_v0,
    Cert.ReferenceIdeal.Read.val_main_cst_17,
    Cert.ReferenceIdeal.Read.val_main_cst_16,
    Cert.ReferenceIdeal.Read.val_main_v45,
    Cert.ReferenceIdeal.Read.val_main_v44,
    Cert.ReferenceIdeal.Read.val_main_v43,
    Cert.ReferenceIdeal.Read.val_main_cst_15,
    Cert.ReferenceIdeal.Read.val_main_v42,
    Cert.ReferenceIdeal.Read.val_main_cst_14,
    Cert.ReferenceIdeal.Read.val_main_v41,
    Cert.ReferenceIdeal.Read.val_main_v40,
    Cert.ReferenceIdeal.Read.val_main_cst_13,
    Cert.ReferenceIdeal.Read.val_main_v39,
    Cert.ReferenceIdeal.Read.val_main_v38,
    Cert.ReferenceIdeal.Read.val_main_cst_12,
    Cert.ReferenceIdeal.Read.val_main_v37,
    Cert.ReferenceIdeal.Read.val_main_v36,
    Cert.ReferenceIdeal.Read.val_main_cst_11,
    Cert.ReferenceIdeal.Read.val_main_v35,
    Cert.ReferenceIdeal.Read.val_main_v34,
    Cert.ReferenceIdeal.Read.val_main_cst_10,
    Cert.ReferenceIdeal.Read.val_main_v33,
    Cert.ReferenceIdeal.Read.val_main_v32,
    Cert.ReferenceIdeal.Read.val_main_call3_v1,
    Cert.ReferenceIdeal.Read.val_main_call3_v0,
    Cert.ReferenceIdeal.Read.val_main_cst_9,
    Cert.ReferenceIdeal.Read.val_main_v31,
    Cert.ReferenceIdeal.Read.val_main_v30,
    Cert.ReferenceIdeal.Read.val_main_v29,
    Cert.ReferenceIdeal.Read.val_main_cst_8,
    Cert.ReferenceIdeal.Read.val_main_v28,
    Cert.ReferenceIdeal.Read.val_main_call2_v1,
    Cert.ReferenceIdeal.Read.val_main_call2_v0,
    Cert.ReferenceIdeal.Read.val_main_cst_7,
    Cert.ReferenceIdeal.Read.val_main_v27,
    Cert.ReferenceIdeal.Read.val_main_v26,
    Cert.ReferenceIdeal.Read.val_main_cst_6,
    Cert.ReferenceIdeal.Read.val_main_v25,
    Cert.ReferenceIdeal.Read.val_main_cst_5,
    Cert.ReferenceIdeal.Read.val_main_v24,
    Cert.ReferenceIdeal.Read.val_main_v23,
    Cert.ReferenceIdeal.Read.val_main_v22,
    Cert.ReferenceIdeal.Read.val_main_call1_v1,
    Cert.ReferenceIdeal.Read.val_main_call1_v0,
    Cert.ReferenceIdeal.Read.val_main_cst_4,
    Cert.ReferenceIdeal.Read.val_main_v21,
    Cert.ReferenceIdeal.Read.val_main_v20,
    Cert.ReferenceIdeal.Read.val_main_v19,
    Cert.ReferenceIdeal.Read.val_main_cst_3,
    Cert.ReferenceIdeal.Read.val_main_v18,
    Cert.ReferenceIdeal.Read.val_main_call0_v1,
    Cert.ReferenceIdeal.Read.val_main_call0_v0,
    Cert.ReferenceIdeal.Read.val_main_cst_2,
    Cert.ReferenceIdeal.Read.val_main_v17,
    Cert.ReferenceIdeal.Read.val_main_v16,
    Cert.ReferenceIdeal.Read.val_main_cst_1,
    Cert.ReferenceIdeal.Read.val_main_v15,
    Cert.ReferenceIdeal.Read.val_main_cst,
    Cert.ReferenceIdeal.Read.val_main_v14,
    Cert.ReferenceIdeal.Read.val_main_v13,
    Cert.ReferenceIdeal.Read.val_main_v12,
    Cert.ReferenceIdeal.Read.val_main_v11,
    Cert.ReferenceIdeal.Read.val_main_v10,
    Cert.ReferenceIdeal.Read.val_main_v9,
    Cert.ReferenceIdeal.Read.val_main_v8,
    Cert.ReferenceIdeal.Read.val_main_c_0,
    Cert.ReferenceIdeal.Read.val_main_v7,
    Cert.ReferenceIdeal.Read.val_main_v6,
    Cert.ReferenceIdeal.Read.val_main_c,
    Cert.ReferenceIdeal.Read.val_main_v5,
    Cert.ReferenceIdeal.Read.val_main_v4,
    Cert.ReferenceIdeal.Read.val_main_v3,
    Cert.ReferenceIdeal.Read.val_main_v2,
    Cert.ReferenceIdeal.Read.val_main_v1,
    Cert.ReferenceIdeal.Read.val_main_v0]
  rfl

/-- At the scalar index it is the cross-entropy mean of the specification's reading of the reference. -/
theorem W13_v61_ce (m : (ℓ : Loc nD τ sig) → Buf (Elt Ideal) ℓ) (c : Dev nD) :
    (W13 m c (Proc.devRef .tc main_v61) : FVec Ideal S_ .f32) ix0
      = Cert.Corr.ceRef (m ((c : Thread nD τ).loc main_arg0)) (m ((c : Thread nD τ).loc main_arg2)) :=
  congrFun (W13_v61 m c) ix0

end Cert.KernelIdeal.Head

end
-- ==== Proof.IdealGlue.lean ====
/-
  The kernel's result as the reference's function of the arguments. The result column's row r is the correlation of
  row r of the buffers the region read; those buffers are, in the reference's own terms, the second argument, the
  first 16 columns of the first, and their rows' square-sums (as a column and as a row). The cross-entropy mean the
  tail reads is the reference's own composed term. So the kernel's result buffer ends at the loss of the three
  arguments — the function the reference's run ends at.
-/
import proofs.«140878_j88596585382792_1_alg».proof.Proof.IdealResult
import proofs.«140878_j88596585382792_1_alg».proof.Proof.IdealHead
import proofs.«140878_j88596585382792_1_alg».proof.Proof.IdealHeadCE
import proofs.«140878_j88596585382792_1_alg».proof.Proof.CorrRef

set_option maxRecDepth 16384

noncomputable section

namespace Cert.Corr

open Cert.ReferenceIdeal Idealize.ShloMosaic Idealize.ShloMosaic.ValueIdx Idealize.SL.Sem

/-- The whole result as one function of the three arguments: the loss of the cross-entropy mean and of the 4096 rows'
    correlations. -/
def lossOf (a0 : (⟨S4096x32, .f32⟩ : BufTy).Contents (Elt Ideal)) (a1 : (⟨S4096x784, .f32⟩ : BufTy).Contents (Elt Ideal))
    (a2 : (⟨S20480, .i32⟩ : BufTy).Contents (Elt Ideal)) : (⟨S_, .f32⟩ : BufTy).Contents (Elt Ideal) :=
  fun _ => loss (ceRef a0 a2) (fun r =>
    corrRow (fun k => a1 (ix2 r k)) (fun j k => a1 (ix2 j k)) (fun k => Eref a0 (ix2 r k)) (fun j k => Eref a0 (ix2 j k))
      (SXref a1 r) (SXref a1) (SEref a0 r) (SEref a0))

/-- The reference's result is that function. -/
theorem ref_lossOf (a0 : (⟨S4096x32, .f32⟩ : BufTy).Contents (Elt Ideal)) (a1 : (⟨S4096x784, .f32⟩ : BufTy).Contents (Elt Ideal))
    (a2 : (⟨S20480, .i32⟩ : BufTy).Contents (Elt Ideal)) :
    Cert.ReferenceIdeal.Read.val_main_v132 (F := Ideal) a0 a1 a2 = lossOf a0 a1 a2 := ref_loss a0 a1 a2

end Cert.Corr

namespace Cert.KernelIdeal.Hand

open Cert.KernelIdeal Cert.KernelIdeal.Gen Cert.KernelIdeal.Head
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- Row r of the result column, in the reference's terms. -/
theorem Gcol_row (c : Dev nD) (r : Fin 4096) :
    Gcol m c (ix2 r (0 : Fin 1))
      = Cert.Corr.corrRow (fun k => m ((c : Thread nD τ).loc main_arg1) (ix2 r k)) (fun j k => m ((c : Thread nD τ).loc main_arg1) (ix2 j k))
          (fun k => Cert.Corr.Eref (m ((c : Thread nD τ).loc main_arg0)) (ix2 r k))
          (fun j k => Cert.Corr.Eref (m ((c : Thread nD τ).loc main_arg0)) (ix2 j k))
          (Cert.Corr.SXref (m ((c : Thread nD τ).loc main_arg1)) r) (Cert.Corr.SXref (m ((c : Thread nD τ).loc main_arg1)))
          (Cert.Corr.SEref (m ((c : Thread nD τ).loc main_arg0)) r) (Cert.Corr.SEref (m ((c : Thread nD τ).loc main_arg0))) := by
  show Cert.Corr.corrRow (fun k : Fin 784 => V m c main_arg1 (ix2 r k)) (fun (j : Fin 4096) (k : Fin 784) => V m c main_arg1 (ix2 j k))
      (fun k : Fin 16 => V m c main_v62 (ix2 r k)) (fun (j : Fin 4096) (k : Fin 16) => V m c main_v62 (ix2 j k))
      (V m c main_v67 (ix2 r (0 : Fin 1))) (fun j : Fin 4096 => V m c main_v68 (ix2 (0 : Fin 1) j))
      (V m c main_v69 (ix2 r (0 : Fin 1))) (fun j : Fin 4096 => V m c main_v70 (ix2 (0 : Fin 1) j)) = _
  have h1 : V m c main_arg1 = m ((c : Thread nD τ).loc main_arg1) := W13_arg1 m c
  have h62 : V m c main_v62 = Cert.Corr.Eref (m ((c : Thread nD τ).loc main_arg0)) := W13_v62 m c
  have h67 : V m c main_v67 (ix2 r (0 : Fin 1)) = Cert.Corr.SXref (m ((c : Thread nD τ).loc main_arg1)) r := W13_v67 m c r
  have h69 : V m c main_v69 (ix2 r (0 : Fin 1)) = Cert.Corr.SEref (m ((c : Thread nD τ).loc main_arg0)) r := W13_v69 m c r
  have h68 : (fun j : Fin 4096 => V m c main_v68 (ix2 (0 : Fin 1) j)) = Cert.Corr.SXref (m ((c : Thread nD τ).loc main_arg1)) :=
    funext fun j => W13_v68 m c j
  have h70 : (fun j : Fin 4096 => V m c main_v70 (ix2 (0 : Fin 1) j)) = Cert.Corr.SEref (m ((c : Thread nD τ).loc main_arg0)) :=
    funext fun j => W13_v70 m c j
  rw [h1, h62, h67, h69, h68, h70]

/-- THE KERNEL'S RESULT: the result buffer ends at the loss of the three arguments as launched. -/
theorem kernel_value (c : Dev nD) :
    W15 m c (Proc.devRef .tc main_v77)
      = Cert.Corr.lossOf (m ((c : Thread nD τ).loc main_arg0)) (m ((c : Thread nD τ).loc main_arg1)) (m ((c : Thread nD τ).loc main_arg2)) := by
  rw [result_v77, tailOf_eq]
  unfold Cert.Corr.lossOf
  funext _
  rw [W13_v61_ce m c]
  exact congrArg (Cert.Corr.loss _) (funext fun r => Gcol_row m c r)

end Cert.KernelIdeal.Hand

end
-- ==== Proof.lean ====
/-
  The claim. Both programs compute  0.9296875 · CE + 0.0703125 · (−mean_r corr_r)  where CE is the UMAP cross-entropy
  mean of the first and third arguments (the same host operations in both programs) and corr_r is the Pearson
  correlation between row r of the pairwise distances of the data rows (second argument) and row r of the pairwise
  distances of the embedding rows (first 16 columns of the first argument), distances taken through the Gram form
  max(|x_r|² + |x_j|² − 2⟨x_r, x_j⟩, 0) and a square root guarded at 0. The kernel computes 128 rows per grid point
  from the square-sums the host prepared; the reference computes all rows at once. Entry by entry the two are the
  same operations on the extended reals — a matrix product as a sum over the contracted axis, a row reduction as a
  sum over the row, a column's total as the sum over its rows — so no finiteness is needed and the precondition is
  never opened.
  The kernel is handed the data matrix and the embedding matrix twice each (a block of rows, and whole), so two pairs
  of its windows share an array; in the two kernel programs' frames each shared array is held by halves, one per
  window on it.
-/
import proofs.«140878_j88596585382792_1_alg».proof.Defs
import proofs.«140878_j88596585382792_1_alg».proof.Proof.Gen.Kernel
import proofs.«140878_j88596585382792_1_alg».proof.Proof.Gen.KernelIdeal
import proofs.«140878_j88596585382792_1_alg».proof.Proof.Gen.ReferenceIdeal
import proofs.«140878_j88596585382792_1_alg».proof.Proof.Gen.ReferenceIdeal.Run
import proofs.«140878_j88596585382792_1_alg».proof.Proof.Gen.ReferenceIdeal.Read
import proofs.«140878_j88596585382792_1_alg».proof.Proof.Gen.Pre_finite_inputs
import proofs.«140878_j88596585382792_1_alg».proof.Proof.BitsFrame
import proofs.«140878_j88596585382792_1_alg».proof.Proof.IdealFrame
import proofs.«140878_j88596585382792_1_alg».proof.Proof.IdealGlue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference, a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the loss of the three arguments. -/
theorem algebraic : Cert.algebraic_KernelIdeal_ReferenceIdeal := by
  intro m ρ m' ρ' _ hagree
  refine ⟨fun c => Cert.Corr.lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c Cert.KernelIdeal.main_v77 (Cert.KernelIdeal.Hand.unscoped_mem _ rfl)).trans (Cert.KernelIdeal.Hand.kernel_value m c),
       (h c Cert.KernelIdeal.main_arg0 (Cert.KernelIdeal.Hand.unscoped_mem _ rfl)).trans (Cert.KernelIdeal.Hand.arg_kept m c _ (.inl rfl)),
       (h c Cert.KernelIdeal.main_arg1 (Cert.KernelIdeal.Hand.unscoped_mem _ rfl)).trans (Cert.KernelIdeal.Hand.arg_kept m c _ (.inr (.inl rfl))),
       (h c Cert.KernelIdeal.main_arg2 (Cert.KernelIdeal.Hand.unscoped_mem _ rfl)).trans (Cert.KernelIdeal.Hand.arg_kept m c _ (.inr (.inr rfl)))⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v132_eq, Cert.Corr.ref_lossOf, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
